-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x81920 : Shape := ⟨2, ![2048, 81920]⟩
abbrev S2048x1 : Shape := ⟨2, ![2048, 1]⟩
abbrev S4x81920 : Shape := ⟨2, ![4, 81920]⟩
abbrev S4 : Shape := ⟨1, ![4]⟩
abbrev S8x8 : Shape := ⟨2, ![8, 8]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S2048x81920 : S_.BroadcastsInDim S2048x81920 (![] : Fin 0 → Fin S2048x81920.rank)
  reducesTo_S2048x81920_S_d0_1 : S2048x81920.ReducesTo [0, 1] S_
  h_S_ : 0 < S_.numel
  bcast_S_S2048x1 : S_.BroadcastsInDim S2048x1 (![] : Fin 0 → Fin S2048x1.rank)
  reducesTo_S2048x1_S_d0_1 : S2048x1.ReducesTo [0, 1] S_
  bcast_S_S4x81920 : S_.BroadcastsInDim S4x81920 (![] : Fin 0 → Fin S4x81920.rank)
  reducesTo_S4x81920_S_d0_1 : S4x81920.ReducesTo [0, 1] S_
  bcast_S_S4 : S_.BroadcastsInDim S4 (![] : Fin 0 → Fin S4.rank)
  reducesTo_S4_S_d0 : S4.ReducesTo [0] S_
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S8 .f32) (main_arg9 : FVec F S1x8 .f32) (main_arg10 : FVec F S1 .f32) (main_v33 : IVec S_ 1) : IVec S_ 1 :=
  let main_v34 : FVec F S8 .f32 := Host.absf main_arg8
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S1x8 .f32 := Host.absf main_arg9
  let main_cst_14 : FVec F S_ .f32 := constant S_ .f32 0x7F800000#32
  let main_v40 : FVec F S1x8 .f32 := broadcastInDim S1x8 ![] bcast_S_S1x8 main_cst_14
  let main_v41 : IVec S1x8 1 := cmpf .olt main_v39 main_v40
  let main_c_15 : IVec S_ 1 := constantI S_ 1 1#1
  let main_v42 : IVec S_ 1 := (fun x v => Host.reduce IntOp.andi x v reducesTo_S1x8_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S4x81920 .f32) (main_arg6 : FVec F S4 .f32) (main_arg7 : FVec F S8x8 .f32) (main_arg8 : FVec F S8 .f32) (main_arg9 : FVec F S1x8 .f32) (main_arg10 : FVec F S1 .f32) (main_v13 : IVec S_ 1) (main_v16 : IVec S2048x1 1) : IVec S_ 1 :=
  let main_c_5 : IVec S_ 1 := constantI S_ 1 1#1
  let main_v17 : IVec S_ 1 := (fun x v => Host.reduce IntOp.andi x v reducesTo_S2048x1_S_d0_1 h_S_) main_v16 main_c_5
  let main_v18 : IVec S_ 1 := andi main_v13 main_v17
  let main_v19 : FVec F S4x81920 .f32 := Host.absf main_arg5
  let main_cst_6 : FVec F S_ .f32 := constant S_ .f32 0x7F800000#32
  let main_v20 : FVec F S4x81920 .f32 := broadcastInDim S4x81920 ![] bcast_S_S4x81920 main_cst_6
  let main_v21 : IVec S4x81920 1 := cmpf .olt main_v19 main_v20
  let main_c_7 : IVec S_ 1 := constantI S_ 1 1#1
  let main_v22 : IVec S_ 1 := (fun x v => Host.reduce IntOp.andi x v reducesTo_S4x81920_S_d0_1 h_S_) main_v21 main_c_7
  let main_v23 : IVec S_ 1 := andi main_v18 main_v22
  let main_v24 : FVec F S4 .f32 := Host.absf main_arg6
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S8x8 .f32 := Host.absf main_arg7
  let main_cst_10 : FVec F S_ .f32 := constant S_ .f32 0x7F800000#32
  let main_v30 : FVec F S8x8 .f32 := broadcastInDim S8x8 ![] bcast_S_S8x8 main_cst_10
  let main_v31 : IVec S8x8 1 := cmpf .olt main_v29 main_v30
  let main_c_11 : IVec S_ 1 := constantI S_ 1 1#1
  let main_v32 : IVec S_ 1 := (fun x v => Host.reduce IntOp.andi x v reducesTo_S8x8_S_d0_1 h_S_) main_v31 main_c_11
  let main_v33 : IVec S_ 1 := andi main_v28 main_v32
  fn_part2 (F := F) main_arg8 main_arg9 main_arg10 main_v33

def fn {F : FTy → Type} [FloatOps F] (main_arg0 : FVec F S2048x81920 .f32) (main_arg1 : FVec F S2048x81920 .f32) (main_arg2 : IVec S2048x1 32) (main_arg3 : FVec F S2048x1 .f32) (main_arg4 : FVec F S2048x1 .f32) (main_arg5 : FVec F S4x81920 .f32) (main_arg6 : FVec F S4 .f32) (main_arg7 : FVec F S8x8 .f32) (main_arg8 : FVec F S8 .f32) (main_arg9 : FVec F S1x8 .f32) (main_arg10 : FVec F S1 .f32) : IVec S_ 1 :=
  let main_v0 : FVec F S2048x81920 .f32 := Host.absf main_arg0
  let main_cst : FVec F S_ .f32 := constant S_ .f32 0x7F800000#32
  let main_v1 : FVec F S2048x81920 .f32 := broadcastInDim S2048x81920 ![] bcast_S_S2048x81920 main_cst
  let main_v2 : IVec S2048x81920 1 := cmpf .olt main_v0 main_v1
  let main_c : IVec S_ 1 := constantI S_ 1 1#1
  let main_v3 : IVec S_ 1 := (fun x v => Host.reduce IntOp.andi x v reducesTo_S2048x81920_S_d0_1 h_S_) main_v2 main_c
  let main_v4 : FVec F S2048x81920 .f32 := Host.absf main_arg1
  let main_cst_0 : FVec F S_ .f32 := constant S_ .f32 0x7F800000#32
  let main_v5 : FVec F S2048x81920 .f32 := broadcastInDim S2048x81920 ![] bcast_S_S2048x81920 main_cst_0
  let main_v6 : IVec S2048x81920 1 := cmpf .olt main_v4 main_v5
  let main_c_1 : IVec S_ 1 := constantI S_ 1 1#1
  let main_v7 : IVec S_ 1 := (fun x v => Host.reduce IntOp.andi x v reducesTo_S2048x81920_S_d0_1 h_S_) main_v6 main_c_1
  let main_v8 : IVec S_ 1 := andi main_v3 main_v7
  let main_v9 : FVec F S2048x1 .f32 := Host.absf main_arg3
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  let main_v14 : FVec F S2048x1 .f32 := Host.absf main_arg4
  let main_cst_4 : FVec F S_ .f32 := constant S_ .f32 0x7F800000#32
  let main_v15 : FVec F S2048x1 .f32 := broadcastInDim S2048x1 ![] bcast_S_S2048x1 main_cst_4
  let main_v16 : IVec S2048x1 1 := cmpf .olt main_v14 main_v15
  fn_part1 (F := F) main_arg5 main_arg6 main_arg7 main_arg8 main_arg9 main_arg10 main_v13 main_v16
-- ==== Kernel.lean ====
abbrev S2048x81920 : Shape := ⟨2, ![2048, 81920]⟩
abbrev S2048x1 : Shape := ⟨2, ![2048, 1]⟩
abbrev S4x81920 : Shape := ⟨2, ![4, 81920]⟩
abbrev S4 : Shape := ⟨1, ![4]⟩
abbrev S8x8 : Shape := ⟨2, ![8, 8]⟩
abbrev S8 : Shape := ⟨1, ![8]⟩
abbrev S1x8 : Shape := ⟨2, ![1, 8]⟩
abbrev S1 : Shape := ⟨1, ![1]⟩
abbrev S1x4 : Shape := ⟨2, ![1, 4]⟩
abbrev S1x1 : Shape := ⟨2, ![1, 1]⟩
abbrev S1024x1024 : Shape := ⟨2, ![1024, 1024]⟩
abbrev S4x1024 : Shape := ⟨2, ![4, 1024]⟩
abbrev S1024x1 : Shape := ⟨2, ![1024, 1]⟩
abbrev S1024x4 : Shape := ⟨2, ![1024, 4]⟩
abbrev S1024x8 : Shape := ⟨2, ![1024, 8]⟩
abbrev S8x1 : Shape := ⟨2, ![8, 1]⟩

abbrev nBuf : Space → Nat
  | .hbm => 15
  | .vmem => 17
  | .smem => 0
  | _ => 0

abbrev bufTy : (tb : Table) → Fin (tcTables nBuf tb) → BufTy
  | .hbm, ⟨0, _⟩ => ⟨S2048x81920, .f32⟩
  | .hbm, ⟨1, _⟩ => ⟨S2048x81920, .f32⟩
  | .hbm, ⟨2, _⟩ => ⟨S2048x1, .i32⟩
  | .hbm, ⟨3, _⟩ => ⟨S2048x1, .f32⟩
  | .hbm, ⟨4, _⟩ => ⟨S2048x1, .f32⟩
  | .hbm, ⟨5, _⟩ => ⟨S4x81920, .f32⟩
  | .hbm, ⟨6, _⟩ => ⟨S4, .f32⟩
  | .hbm, ⟨7, _⟩ => ⟨S8x8, .f32⟩
  | .hbm, ⟨8, _⟩ => ⟨S8, .f32⟩
  | .hbm, ⟨9, _⟩ => ⟨S1x8, .f32⟩
  | .hbm, ⟨10, _⟩ => ⟨S1, .f32⟩
  | .hbm, ⟨11, _⟩ => ⟨S1x4, .f32⟩
  | .hbm, ⟨12, _⟩ => ⟨S1x8, .f32⟩
  | .hbm, ⟨13, _⟩ => ⟨S1x1, .f32⟩
  | .hbm, ⟨14, _⟩ => ⟨S2048x1, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S4x1024, .f32⟩
  | .local _ .vmem, ⟨5, _⟩ => ⟨S4x1024, .f32⟩
  | .local _ .vmem, ⟨6, _⟩ => ⟨S1024x1, .i32⟩
  | .local _ .vmem, ⟨7, _⟩ => ⟨S1024x1, .i32⟩
  | .local _ .vmem, ⟨8, _⟩ => ⟨S1x4, .f32⟩
  | .local _ .vmem, ⟨9, _⟩ => ⟨S8x8, .f32⟩
  | .local _ .vmem, ⟨10, _⟩ => ⟨S1x8, .f32⟩
  | .local _ .vmem, ⟨11, _⟩ => ⟨S1x8, .f32⟩
  | .local _ .vmem, ⟨12, _⟩ => ⟨S1x1, .f32⟩
  | .local _ .vmem, ⟨13, _⟩ => ⟨S1024x1, .f32⟩
  | .local _ .vmem, ⟨14, _⟩ => ⟨S1024x1, .f32⟩
  | .local _ .vmem, ⟨15, _⟩ => ⟨S1024x4, .f32⟩
  | .local _ .vmem, ⟨16, _⟩ => ⟨S1024x4, .f32⟩
  | _, _ => ⟨S2048x81920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 80], ![false, false]⟩

def k0_cond2 (i : grid0.Coords) : BitVec 1 :=
  let arg1 : BitVec 32 := BitVec.ofNat 32 (i 1).val
  let c79_i32 : BitVec 32 := 79#32
  let v23 : BitVec 1 := Scalar.cmpi .eq arg1 c79_i32
  let v24 : BitVec 32 := Scalar.extui v23
  let c0_i32_15 : BitVec 32 := 0#32
  let v25 : BitVec 1 := Scalar.cmpi .ne v24 c0_i32_15
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S4_S1x4 : S4.ShapeCasts S1x4
  shapeCasts_S8_S1x8 : S8.ShapeCasts S1x8
  shapeCasts_S1_S1x1 : S1.ShapeCasts S1x1
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  inb_S4x1024_S4x1024_0_0 : ∀ a, (![0, 0] : Fin 2 → Nat) a + S4x1024.size a ≤ S4x1024.size a
  h_S4x1024 : 0 < S4x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  transposes_S4x1024_p1_0_S1024x4 : S4x1024.Transposes [1, 0] S1024x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S1024x4 : S1x4.Broadcasts S1024x4
  inb_S1024x1_S1024x1_0_0 : ∀ a, (![0, 0] : Fin 2 → Nat) a + S1024x1.size a ≤ S1024x1.size a
  h_S1024x1 : 0 < S1024x1.numel
  concatenates_S1024x4_S1024x4_S1024x8_d1 : Shape.Concatenates [S1024x4, S1024x4] S1024x8 1
  broadcasts_S1024x1_S1024x8 : S1024x1.Broadcasts S1024x8
  inb_S8x8_S8x8_0_0 : ∀ a, (![0, 0] : Fin 2 → Nat) a + S8x8.size a ≤ S8x8.size a
  h_S8x8 : 0 < S8x8.numel
  transposes_S8x8_p1_0_S8x8 : S8x8.Transposes [1, 0] S8x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  transposes_S1x8_p1_0_S8x1 : S1x8.Transposes [1, 0] S8x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  dot_S1024x1024_S1024x4_S1024x4_1_0_0_1_n_n_wf : DotDims.WF S1024x1024 S1024x4 S1024x4 [1] [0] [0] [1] [] []
  dot_S1024x8_S8x8_S1024x8_1_0_0_1_n_n_wf : DotDims.WF S1024x8 S8x8 S1024x8 [1] [0] [0] [1] [] []
  dot_S1024x8_S8x1_S1024x1_1_0_0_1_n_n_wf : DotDims.WF S1024x8 S8x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x81920.size a
  hwx0_0 : ∀ i : grid0.Coords, EltTy.bits .f32 = 32 ∨ (Rect.block (s := S2048x81920) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S2048x81920.size a
  hwx0_1 : ∀ i : grid0.Coords, EltTy.bits .f32 = 32 ∨ (Rect.block (s := S2048x81920) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x81920.size a
  hwx0_2 : ∀ i : grid0.Coords, EltTy.bits .f32 = 32 ∨ (Rect.block (s := S4x81920) S4x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S2048x1.size a
  hwx0_3 : ∀ i : grid0.Coords, EltTy.bits .i32 = 32 ∨ (Rect.block (s := S2048x1) S1024x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4.size a ≤ S1x4.size a
  hwx0_4 : ∀ i : grid0.Coords, EltTy.bits .f32 = 32 ∨ (Rect.block (s := S1x4) S1x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x8.size a ≤ S8x8.size a
  hwx0_5 : ∀ i : grid0.Coords, EltTy.bits .f32 = 32 ∨ (Rect.block (s := S8x8) S8x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8.size a ≤ S1x8.size a
  hwx0_7 : ∀ i : grid0.Coords, EltTy.bits .f32 = 32 ∨ (Rect.block (s := S1x8) S1x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S2048x1.size a
  hwx0_9 : ∀ i : grid0.Coords, EltTy.bits .f32 = 32 ∨ (Rect.block (s := S2048x1) S1024x1.size (cc0_transform_9 i) (hinb0_9 i)).WholeWords (EltTy.packing .f32)

variable [Facts₀]

def dot_S1024x1024_S1024x4_S1024x4_1_0_0_1_n_n : DotDims S1024x1024 S1024x4 S1024x4 where
  lhsContracting := [1]
  rhsContracting := [0]
  lhsNonContracting := [0]
  rhsNonContracting := [1]
  lhsBatch := []
  rhsBatch := []
  wf := dot_S1024x1024_S1024x4_S1024x4_1_0_0_1_n_n_wf
def dot_S1024x8_S8x8_S1024x8_1_0_0_1_n_n : DotDims S1024x8 S8x8 S1024x8 where
  lhsContracting := [1]
  rhsContracting := [0]
  lhsNonContracting := [0]
  rhsNonContracting := [1]
  lhsBatch := []
  rhsBatch := []
  wf := dot_S1024x8_S8x8_S1024x8_1_0_0_1_n_n_wf
def dot_S1024x8_S8x1_S1024x1_1_0_0_1_n_n : DotDims S1024x8 S8x1 S1024x1 where
  lhsContracting := [1]
  rhsContracting := [0]
  lhsNonContracting := [0]
  rhsNonContracting := [1]
  lhsBatch := []
  rhsBatch := []
  wf := dot_S1024x8_S8x1_S1024x1_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S4x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S8x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S1x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1024x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S2048x81920 : Shape := ⟨2, ![2048, 81920]⟩
abbrev S2048x1 : Shape := ⟨2, ![2048, 1]⟩
abbrev S4x81920 : Shape := ⟨2, ![4, 81920]⟩
abbrev S4 : Shape := ⟨1, ![4]⟩
abbrev S8x8 : Shape := ⟨2, ![8, 8]⟩
abbrev S8 : Shape := ⟨1, ![8]⟩
abbrev S1x8 : Shape := ⟨2, ![1, 8]⟩
abbrev S1 : Shape := ⟨1, ![1]⟩
abbrev S81920x4 : Shape := ⟨2, ![81920, 4]⟩
abbrev S2048x4 : Shape := ⟨2, ![2048, 4]⟩
abbrev S1x4 : Shape := ⟨2, ![1, 4]⟩
abbrev S2048x8 : Shape := ⟨2, ![2048, 8]⟩
abbrev S_ : Shape := ⟨0, ![]⟩
abbrev S8x1 : Shape := ⟨2, ![8, 1]⟩
abbrev S1x1 : Shape := ⟨2, ![1, 1]⟩

abbrev nBuf : Space → Nat
  | .hbm => 58
  | .vmem => 0
  | .smem => 0
  | _ => 0

abbrev bufTy : (tb : Table) → Fin (tcTables nBuf tb) → BufTy
  | .hbm, ⟨0, _⟩ => ⟨S2048x81920, .f32⟩
  | .hbm, ⟨1, _⟩ => ⟨S2048x81920, .f32⟩
  | .hbm, ⟨2, _⟩ => ⟨S2048x1, .i32⟩
  | .hbm, ⟨3, _⟩ => ⟨S2048x1, .f32⟩
  | .hbm, ⟨4, _⟩ => ⟨S2048x1, .f32⟩
  | .hbm, ⟨5, _⟩ => ⟨S4x81920, .f32⟩
  | .hbm, ⟨6, _⟩ => ⟨S4, .f32⟩
  | .hbm, ⟨7, _⟩ => ⟨S8x8, .f32⟩
  | .hbm, ⟨8, _⟩ => ⟨S8, .f32⟩
  | .hbm, ⟨9, _⟩ => ⟨S1x8, .f32⟩
  | .hbm, ⟨10, _⟩ => ⟨S1, .f32⟩
  | .hbm, ⟨11, _⟩ => ⟨S81920x4, .f32⟩
  | .hbm, ⟨12, _⟩ => ⟨S2048x4, .f32⟩
  | .hbm, ⟨13, _⟩ => ⟨S1x4, .f32⟩
  | .hbm, ⟨14, _⟩ => ⟨S2048x4, .f32⟩
  | .hbm, ⟨15, _⟩ => ⟨S2048x4, .f32⟩
  | .hbm, ⟨16, _⟩ => ⟨S81920x4, .f32⟩
  | .hbm, ⟨17, _⟩ => ⟨S2048x4, .f32⟩
  | .hbm, ⟨18, _⟩ => ⟨S1x4, .f32⟩
  | .hbm, ⟨19, _⟩ => ⟨S2048x4, .f32⟩
  | .hbm, ⟨20, _⟩ => ⟨S2048x4, .f32⟩
  | .hbm, ⟨21, _⟩ => ⟨S2048x1, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x8, .f32⟩
  | .hbm, ⟨29, _⟩ => ⟨S2048x8, .f32⟩
  | .hbm, ⟨30, _⟩ => ⟨S2048x8, .f32⟩
  | .hbm, ⟨31, _⟩ => ⟨S2048x8, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2048x8, .f32⟩
  | .hbm, ⟨36, _⟩ => ⟨S2048x8, .f32⟩
  | .hbm, ⟨37, _⟩ => ⟨S_, .f32⟩
  | .hbm, ⟨38, _⟩ => ⟨S2048x8, .f32⟩
  | .hbm, ⟨39, _⟩ => ⟨S2048x8, .f32⟩
  | .hbm, ⟨40, _⟩ => ⟨S8x8, .f32⟩
  | .hbm, ⟨41, _⟩ => ⟨S2048x8, .f32⟩
  | .hbm, ⟨42, _⟩ => ⟨S1x8, .f32⟩
  | .hbm, ⟨43, _⟩ => ⟨S2048x8, .f32⟩
  | .hbm, ⟨44, _⟩ => ⟨S2048x8, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2048x8, .f32⟩
  | .hbm, ⟨49, _⟩ => ⟨S2048x8, .f32⟩
  | .hbm, ⟨50, _⟩ => ⟨S_, .f32⟩
  | .hbm, ⟨51, _⟩ => ⟨S2048x8, .f32⟩
  | .hbm, ⟨52, _⟩ => ⟨S2048x8, .f32⟩
  | .hbm, ⟨53, _⟩ => ⟨S8x1, .f32⟩
  | .hbm, ⟨54, _⟩ => ⟨S2048x1, .f32⟩
  | .hbm, ⟨55, _⟩ => ⟨S1x1, .f32⟩
  | .hbm, ⟨56, _⟩ => ⟨S2048x1, .f32⟩
  | .hbm, ⟨57, _⟩ => ⟨S2048x1, .f32⟩
  | _, _ => ⟨S2048x81920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_cst_1 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_cst_3 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩

abbrev nD : Nat := 1
abbrev τ : Topo := Topo.v7x

variable {F : FTy → Type} [FloatOps F]

class Facts₀ : Prop where
  transposes_S4x81920_S81920x4_1_0 : S4x81920.Transposes [1, 0] S81920x4
  bcast_S4_S1x4_1 : S4.BroadcastsInDim S1x4 (![1] : Fin 1 → Fin S1x4.rank)
  bcast_S1x4_S2048x4_0_1 : S1x4.BroadcastsInDim S2048x4 (![0, 1] : Fin 2 → Fin S2048x4.rank)
  concatenates_S2048x4_S2048x4_S2048x8_d1 : Shape.Concatenates [S2048x4, S2048x4] S2048x8 1
  bcast_S2048x1_S2048x8_0_1 : S2048x1.BroadcastsInDim S2048x8 (![0, 1] : Fin 2 → Fin S2048x8.rank)
  bcast_S_S2048x1 : S_.BroadcastsInDim S2048x1 (![] : Fin 0 → Fin S2048x1.rank)
  bcast_S_S2048x8 : S_.BroadcastsInDim S2048x8 (![] : Fin 0 → Fin S2048x8.rank)
  transposes_S8x8_S8x8_1_0 : S8x8.Transposes [1, 0] S8x8
  bcast_S8_S1x8_1 : S8.BroadcastsInDim S1x8 (![1] : Fin 1 → Fin S1x8.rank)
  bcast_S1x8_S2048x8_0_1 : S1x8.BroadcastsInDim S2048x8 (![0, 1] : Fin 2 → Fin S2048x8.rank)
  transposes_S1x8_S8x1_1_0 : S1x8.Transposes [1, 0] S8x1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  dot_S2048x81920_S81920x4_S2048x4_1_0_0_1_n_n_wf : DotDims.WF S2048x81920 S81920x4 S2048x4 [1] [0] [0] [1] [] []
  dot_S2048x8_S8x8_S2048x8_1_0_0_1_n_n_wf : DotDims.WF S2048x8 S8x8 S2048x8 [1] [0] [0] [1] [] []
  dot_S2048x8_S8x1_S2048x1_1_0_0_1_n_n_wf : DotDims.WF S2048x8 S8x1 S2048x1 [1] [0] [0] [1] [] []

variable [Facts₀]

def dot_S2048x81920_S81920x4_S2048x4_1_0_0_1_n_n : DotDims S2048x81920 S81920x4 S2048x4 where
  lhsContracting := [1]
  rhsContracting := [0]
  lhsNonContracting := [0]
  rhsNonContracting := [1]
  lhsBatch := []
  rhsBatch := []
  wf := dot_S2048x81920_S81920x4_S2048x4_1_0_0_1_n_n_wf
def dot_S2048x8_S8x8_S2048x8_1_0_0_1_n_n : DotDims S2048x8 S8x8 S2048x8 where
  lhsContracting := [1]
  rhsContracting := [0]
  lhsNonContracting := [0]
  rhsNonContracting := [1]
  lhsBatch := []
  rhsBatch := []
  wf := dot_S2048x8_S8x8_S2048x8_1_0_0_1_n_n_wf
def dot_S2048x8_S8x1_S2048x1_1_0_0_1_n_n : DotDims S2048x8 S8x1 S2048x1 where
  lhsContracting := [1]
  rhsContracting := [0]
  lhsNonContracting := [0]
  rhsNonContracting := [1]
  lhsBatch := []
  rhsBatch := []
  wf := dot_S2048x8_S8x1_S2048x1_1_0_0_1_n_n_wf

class Facts : Prop extends Facts₀ where

variable [Facts]
-- ==== Proof.Spec.lean ====
/-
  One row of the network, as a function on the extended reals.

  Both programs compute, for every batch row, the same expression of that row's two feature
  accumulators: with `w` and `b` the white and black accumulators (four numbers each, bias
  included) and `t` the side to move as a number,

      h   = clip (t · [w | b] + (1 − t) · [b | w])            (eight numbers)
      g n = clip (Σ k, h k · W1 n k + b1 n)                   (eight numbers)
      out = Σ n, g n · W2 n + b2

  where `clip x = min 1 (max 0 x)` and `[u | v]` is `u` followed by `v`. The two programs differ only
  in how the accumulators are summed (one long sum over the features, or eighty partial sums added
  one after the other); that equality is a separate module's business.
-/
import Idealize.ShloMosaic.PureOps.Ideal
import Idealize.ShloMosaic.Lib.ValueIdx

noncomputable section

namespace Cert.Spec

open Idealize.ShloMosaic

/-- The number 1 as both programs spell it: the f32 word `0x3F800000`. -/
abbrev one : EReal := Ideal.ofBits .f32 0x3F800000#32

/-- The number 0 as both programs spell it: the f32 word `0x00000000`. -/
abbrev zero : EReal := Ideal.ofBits .f32 0x00000000#32

/-- Clipping to the unit interval, in the order both programs apply it: first the lower bound, then the upper. -/
def clip (x : EReal) : EReal := min one (max zero x)

/-- Two four-vectors side by side: `u` in positions 0–3, `v` in positions 4–7. -/
def cat (u v : Fin 4 → EReal) (j : Fin 8) : EReal :=
  if h : j.val < 4 then u ⟨j.val, h⟩ else v ⟨j.val - 4, by have := j.isLt; omega⟩

/-- The first hidden layer of one row: the two accumulators mixed by the side to move, clipped. -/
def hidden (t : EReal) (w b : Fin 4 → EReal) (k : Fin 8) : EReal :=
  clip (t * cat w b k + (one - t) * cat b w k)

/-- The network's output for one row, from its accumulators `w`, `b` (bias included), the side to move `t`,
    and the two small layers' weights and biases. -/
def rowOut (t : EReal) (w b : Fin 4 → EReal) (W1 : Fin 8 → Fin 8 → EReal) (b1 : Fin 8 → EReal)
    (W2 : Fin 8 → EReal) (b2 : EReal) : EReal :=
  (∑ n : Fin 8, clip ((∑ k : Fin 8, hidden t w b k * W1 n k) + b1 n) * W2 n) + b2

end Cert.Spec

end
-- ==== Proof.RefRow.lean ====
/-
  The reference read at one row, over the extended reals.

  Row `r` of the reference's result is `Spec.rowOut` of that row's two accumulators — for each of the four
  columns the sum over all 81920 features of the row's feature times the column's weight, plus the first bias
  —, the row's side to move, and the small layers' weights and biases.
-/
import proofs.«105220_j17549236372205_1_alg».proof.Proof.Gen.ReferenceIdeal.Read
import proofs.«105220_j17549236372205_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Row

open Cert.ReferenceIdeal Cert.ReferenceIdeal.Gen Cert.ReferenceIdeal.Read Idealize.ShloMosaic Idealize.ShloMosaic.ValueIdx

/-! ### The index maps of the two feature products and their bias, at an index given by its coordinates -/

private theorem lidx1_ix (r : Fin 2048) (j : Fin 4) (k : Fin 81920) : lidx_main_v1 (ix2 r j) k = ix2 r k :=
  funext fun a => Fin.ext (by match a with | ⟨0, _⟩ => rfl | ⟨1, _⟩ => rfl)
private theorem ridx1_ix (r : Fin 2048) (j : Fin 4) (k : Fin 81920) : idx_main_v0 (ridx_main_v1 (ix2 r j) k) = ix2 j k :=
  funext fun a => Fin.ext (by match a with | ⟨0, _⟩ => rfl | ⟨1, _⟩ => rfl)
private theorem bidx3_ix (r : Fin 2048) (j : Fin 4) : idx_main_v2 (idx_main_v3 (ix2 r j)) = ix1 j :=
  funext fun a => Fin.ext (by match a with | ⟨0, _⟩ => rfl)
private theorem lidx6_ix (r : Fin 2048) (j : Fin 4) (k : Fin 81920) : lidx_main_v6 (ix2 r j) k = ix2 r k :=
  funext fun a => Fin.ext (by match a with | ⟨0, _⟩ => rfl | ⟨1, _⟩ => rfl)
private theorem ridx6_ix (r : Fin 2048) (j : Fin 4) (k : Fin 81920) : idx_main_v5 (ridx_main_v6 (ix2 r j) k) = ix2 j k :=
  funext fun a => Fin.ext (by match a with | ⟨0, _⟩ => rfl | ⟨1, _⟩ => rfl)
private theorem bidx8_ix (r : Fin 2048) (j : Fin 4) : idx_main_v7 (idx_main_v8 (ix2 r j)) = ix1 j :=
  funext fun a => Fin.ext (by match a with | ⟨0, _⟩ => rfl)

/-- The white accumulator: entry `(r, j)` is the sum over the features of row `r`'s feature times column `j`'s
    weight, plus the bias of column `j`. -/
private theorem acc_white (x : (⟨S2048x81920, .f32⟩ : BufTy).Contents (Elt Ideal))
    (W0 : (⟨S4x81920, .f32⟩ : BufTy).Contents (Elt Ideal)) (b0 : (⟨S4, .f32⟩ : BufTy).Contents (Elt Ideal))
    (r : Fin 2048) (j : Fin 4) :
    val_main_v4 (F := Ideal) x W0 b0 (ix2 r j) = (∑ k : Fin 81920, x (ix2 r k) * W0 (ix2 j k)) + b0 (ix1 j) := by
  rw [val_main_v4_apply, val_main_v1_apply, val_main_v3_apply, val_main_v2_apply]
  simp only [val_main_v0_apply, lidx1_ix, ridx1_ix, bidx3_ix, Ideal.addf_def]

/-- The black accumulator, the same expression of the black features. -/
private theorem acc_black (x : (⟨S2048x81920, .f32⟩ : BufTy).Contents (Elt Ideal))
    (W0 : (⟨S4x81920, .f32⟩ : BufTy).Contents (Elt Ideal)) (b0 : (⟨S4, .f32⟩ : BufTy).Contents (Elt Ideal))
    (r : Fin 2048) (j : Fin 4) :
    val_main_v9 (F := Ideal) x W0 b0 (ix2 r j) = (∑ k : Fin 81920, x (ix2 r k) * W0 (ix2 j k)) + b0 (ix1 j) := by
  rw [val_main_v9_apply, val_main_v6_apply, val_main_v8_apply, val_main_v7_apply]
  simp only [val_main_v5_apply, lidx6_ix, ridx6_ix, bidx8_ix, Ideal.addf_def]

/-! ### Two four-column arrays side by side -/

/-- Joining two `2048 × 4` arrays along the columns: at `(r, k)` the result is the first array's row `r` at
    column `k` when `k < 4`, and the second's at column `k - 4` otherwise. -/
private theorem cat_ix (u v : (⟨S2048x4, .f32⟩ : BufTy).Contents (Elt Ideal)) (r : Fin 2048) (k : Fin 8) :
    concatenate S2048x8 1 [⟨S2048x4, u⟩, ⟨S2048x4, v⟩] concatenates_S2048x4_S2048x4_S2048x8_d1 (ix2 r k)
      = Cert.Spec.cat (fun j => u (ix2 r j)) (fun j => v (ix2 r j)) k := by
  unfold Cert.Spec.cat
  by_cases h : k.val < 4
  · rw [dif_pos h]
    exact concatenate_pair_apply_left 1 u v _ (ix2 r k) rfl (ix2 r (⟨k.val, h⟩ : Fin 4))
      (fun b => by match b with | ⟨0, _⟩ => rfl | ⟨1, _⟩ => rfl)
  · rw [dif_neg h]
    have hk : k.val - 4 < 4 := by have := k.isLt; omega
    exact concatenate_pair_apply_right 1 u v _ (ix2 r k) rfl rfl (ix2 r (⟨k.val - 4, hk⟩ : Fin 4))
      (fun b hb => by
        match b, hb with
        | ⟨0, _⟩, _ => rfl
        | ⟨1, _⟩, hb => exact absurd rfl hb)
      (by show (k.val - 4) + 4 = k.val; omega)

/-- The first join: white accumulators in columns 0–3, black in columns 4–7. -/
private theorem cat_wb (white black : (⟨S2048x81920, .f32⟩ : BufTy).Contents (Elt Ideal))
    (W0 : (⟨S4x81920, .f32⟩ : BufTy).Contents (Elt Ideal)) (b0 : (⟨S4, .f32⟩ : BufTy).Contents (Elt Ideal))
    (r : Fin 2048) (k : Fin 8) :
    val_main_v11 (F := Ideal) white black W0 b0 (ix2 r k)
      = Cert.Spec.cat (fun j => (∑ k : Fin 81920, white (ix2 r k) * W0 (ix2 j k)) + b0 (ix1 j))
          (fun j => (∑ k : Fin 81920, black (ix2 r k) * W0 (ix2 j k)) + b0 (ix1 j)) k := by
  unfold val_main_v11
  rw [cat_ix]
  simp only [acc_white, acc_black]

/-- The second join: black accumulators in columns 0–3, white in columns 4–7. -/
private theorem cat_bw (white black : (⟨S2048x81920, .f32⟩ : BufTy).Contents (Elt Ideal))
    (W0 : (⟨S4x81920, .f32⟩ : BufTy).Contents (Elt Ideal)) (b0 : (⟨S4, .f32⟩ : BufTy).Contents (Elt Ideal))
    (r : Fin 2048) (k : Fin 8) :
    val_main_v16 (F := Ideal) white black W0 b0 (ix2 r k)
      = Cert.Spec.cat (fun j => (∑ k : Fin 81920, black (ix2 r k) * W0 (ix2 j k)) + b0 (ix1 j))
          (fun j => (∑ k : Fin 81920, white (ix2 r k) * W0 (ix2 j k)) + b0 (ix1 j)) k := by
  unfold val_main_v16
  rw [cat_ix]
  simp only [acc_white, acc_black]

/-! ### The mix by the side to move, and the first clip -/

private theorem idx12_ix (r : Fin 2048) (k : Fin 8) : idx_main_v12 (ix2 r k) = ix2 r (0 : Fin 1) :=
  funext fun a => Fin.ext (by match a with | ⟨0, _⟩ => rfl | ⟨1, _⟩ => rfl)
private theorem idx17_ix (r : Fin 2048) (k : Fin 8) : idx_main_v17 (ix2 r k) = ix2 r (0 : Fin 1) :=
  funext fun a => Fin.ext (by match a with | ⟨0, _⟩ => rfl | ⟨1, _⟩ => rfl)

/-- The side to move, broadcast along the eight columns. -/
private theorem turn_ix (turn : (⟨S2048x1, .i32⟩ : BufTy).Contents (Elt Ideal)) (r : Fin 2048) (k : Fin 8) :
    val_main_v12 (F := Ideal) turn (ix2 r k) = FloatOps.sitofp (F := Ideal) .f32 (turn (ix2 r (0 : Fin 1))) := by
  rw [val_main_v12_apply, val_main_v10_apply, idx12_ix]

/-- One minus the side to move, broadcast along the eight columns. -/
private theorem unturn_ix (turn : (⟨S2048x1, .i32⟩ : BufTy).Contents (Elt Ideal)) (r : Fin 2048) (k : Fin 8) :
    val_main_v17 (F := Ideal) turn (ix2 r k)
      = Cert.Spec.one - FloatOps.sitofp (F := Ideal) .f32 (turn (ix2 r (0 : Fin 1))) := by
  rw [val_main_v17_apply, val_main_v15_apply, val_main_v14_apply, val_main_cst_apply, val_main_v10_apply, idx17_ix]
  rfl

/-- Before the clip, entry `(r, k)` is the side to move times the first join plus its complement times the second. -/
private theorem mix_ix (white black : (⟨S2048x81920, .f32⟩ : BufTy).Contents (Elt Ideal))
    (turn : (⟨S2048x1, .i32⟩ : BufTy).Contents (Elt Ideal))
    (W0 : (⟨S4x81920, .f32⟩ : BufTy).Contents (Elt Ideal)) (b0 : (⟨S4, .f32⟩ : BufTy).Contents (Elt Ideal))
    (r : Fin 2048) (k : Fin 8) :
    val_main_v19 (F := Ideal) white black turn W0 b0 (ix2 r k)
      = FloatOps.sitofp (F := Ideal) .f32 (turn (ix2 r (0 : Fin 1)))
          * Cert.Spec.cat (fun j => (∑ k : Fin 81920, white (ix2 r k) * W0 (ix2 j k)) + b0 (ix1 j))
              (fun j => (∑ k : Fin 81920, black (ix2 r k) * W0 (ix2 j k)) + b0 (ix1 j)) k
        + (Cert.Spec.one - FloatOps.sitofp (F := Ideal) .f32 (turn (ix2 r (0 : Fin 1))))
          * Cert.Spec.cat (fun j => (∑ k : Fin 81920, black (ix2 r k) * W0 (ix2 j k)) + b0 (ix1 j))
              (fun j => (∑ k : Fin 81920, white (ix2 r k) * W0 (ix2 j k)) + b0 (ix1 j)) k := by
  rw [val_main_v19_apply, val_main_v13_apply, val_main_v18_apply, turn_ix, unturn_ix, cat_wb, cat_bw]
  rfl

/-- After the clip, entry `(r, k)` is the first hidden layer of row `r`. -/
private theorem hidden_ix (white black : (⟨S2048x81920, .f32⟩ : BufTy).Contents (Elt Ideal))
    (turn : (⟨S2048x1, .i32⟩ : BufTy).Contents (Elt Ideal))
    (W0 : (⟨S4x81920, .f32⟩ : BufTy).Contents (Elt Ideal)) (b0 : (⟨S4, .f32⟩ : BufTy).Contents (Elt Ideal))
    (r : Fin 2048) (k : Fin 8) :
    val_main_v20 (F := Ideal) white black turn W0 b0 (ix2 r k)
      = Cert.Spec.hidden (FloatOps.sitofp (F := Ideal) .f32 (turn (ix2 r (0 : Fin 1))))
          (fun j => (∑ k : Fin 81920, white (ix2 r k) * W0 (ix2 j k)) + b0 (ix1 j))
          (fun j => (∑ k : Fin 81920, black (ix2 r k) * W0 (ix2 j k)) + b0 (ix1 j)) k := by
  rw [val_main_v20_apply, val_main_call0_v2_apply, val_main_call0_v4_apply, val_main_call0_v3_apply,
    val_main_cst_1_apply, val_main_call0_v1_apply, val_main_call0_v0_apply, val_main_cst_0_apply, mix_ix]
  rfl

/-! ### The second layer and its clip -/

private theorem lidx22_ix (r : Fin 2048) (n k : Fin 8) : lidx_main_v22 (ix2 r n) k = ix2 r k :=
  funext fun a => Fin.ext (by match a with | ⟨0, _⟩ => rfl | ⟨1, _⟩ => rfl)
private theorem ridx22_ix (r : Fin 2048) (n k : Fin 8) : idx_main_v21 (ridx_main_v22 (ix2 r n) k) = ix2 n k :=
  funext fun a => Fin.ext (by match a with | ⟨0, _⟩ => rfl | ⟨1, _⟩ => rfl)
private theorem bidx24_ix (r : Fin 2048) (n : Fin 8) : idx_main_v23 (idx_main_v24 (ix2 r n)) = ix1 n :=
  funext fun a => Fin.ext (by match a with | ⟨0, _⟩ => rfl)

/-- After the second clip, entry `(r, n)` is the clipped second layer of row `r`'s first hidden layer. -/
private theorem second_ix (white black : (⟨S2048x81920, .f32⟩ : BufTy).Contents (Elt Ideal))
    (turn : (⟨S2048x1, .i32⟩ : BufTy).Contents (Elt Ideal))
    (W0 : (⟨S4x81920, .f32⟩ : BufTy).Contents (Elt Ideal)) (b0 : (⟨S4, .f32⟩ : BufTy).Contents (Elt Ideal))
    (W1 : (⟨S8x8, .f32⟩ : BufTy).Contents (Elt Ideal)) (b1 : (⟨S8, .f32⟩ : BufTy).Contents (Elt Ideal))
    (r : Fin 2048) (n : Fin 8) :
    val_main_v26 (F := Ideal) white black turn W0 b0 W1 b1 (ix2 r n)
      = Cert.Spec.clip ((∑ k : Fin 8,
          Cert.Spec.hidden (FloatOps.sitofp (F := Ideal) .f32 (turn (ix2 r (0 : Fin 1))))
            (fun j => (∑ k : Fin 81920, white (ix2 r k) * W0 (ix2 j k)) + b0 (ix1 j))
            (fun j => (∑ k : Fin 81920, black (ix2 r k) * W0 (ix2 j k)) + b0 (ix1 j)) k * W1 (ix2 n k))
          + b1 (ix1 n)) := by
  rw [val_main_v26_apply, val_main_call1_v2_apply, val_main_call1_v4_apply, val_main_call1_v3_apply,
    val_main_cst_3_apply, val_main_call1_v1_apply, val_main_call1_v0_apply, val_main_cst_2_apply,
    val_main_v25_apply, val_main_v22_apply, val_main_v24_apply, val_main_v23_apply, bidx24_ix]
  simp only [val_main_v21_apply, lidx22_ix, ridx22_ix, hidden_ix]
  rfl

/-! ### The output layer -/

private theorem lidx28_ix (r : Fin 2048) (n : Fin 8) : lidx_main_v28 (ix2 r (0 : Fin 1)) n = ix2 r n :=
  funext fun a => Fin.ext (by match a with | ⟨0, _⟩ => rfl | ⟨1, _⟩ => rfl)
private theorem ridx28_ix (r : Fin 2048) (n : Fin 8) :
    idx_main_v27 (ridx_main_v28 (ix2 r (0 : Fin 1)) n) = ix2 (0 : Fin 1) n :=
  funext fun a => Fin.ext (by match a with | ⟨0, _⟩ => rfl | ⟨1, _⟩ => rfl)
private theorem bidx30_ix (r : Fin 2048) : idx_main_v29 (idx_main_v30 (ix2 r (0 : Fin 1))) = ix1 (0 : Fin 1) :=
  funext fun a => Fin.ext (by match a with | ⟨0, _⟩ => rfl)

/-- Row `r` of the reference's result. -/
theorem result_row (white black : (⟨S2048x81920, .f32⟩ : BufTy).Contents (Elt Ideal)) (turn : (⟨S2048x1, .i32⟩ : BufTy).Contents (Elt Ideal))
    (W0 : (⟨S4x81920, .f32⟩ : BufTy).Contents (Elt Ideal)) (b0 : (⟨S4, .f32⟩ : BufTy).Contents (Elt Ideal))
    (W1 : (⟨S8x8, .f32⟩ : BufTy).Contents (Elt Ideal)) (b1 : (⟨S8, .f32⟩ : BufTy).Contents (Elt Ideal))
    (W2 : (⟨S1x8, .f32⟩ : BufTy).Contents (Elt Ideal)) (b2 : (⟨S1, .f32⟩ : BufTy).Contents (Elt Ideal)) (r : Fin 2048) :
    val_main_v31 (F := Ideal) white black turn W0 b0 W1 b1 W2 b2 (ix2 r (0 : Fin 1))
      = Cert.Spec.rowOut (FloatOps.sitofp (F := Ideal) .f32 (turn (ix2 r (0 : Fin 1))))
          (fun j => (∑ k : Fin 81920, white (ix2 r k) * W0 (ix2 j k)) + b0 (ix1 j))
          (fun j => (∑ k : Fin 81920, black (ix2 r k) * W0 (ix2 j k)) + b0 (ix1 j))
          (fun n k => W1 (ix2 n k)) (fun n => b1 (ix1 n)) (fun n => W2 (ix2 (0 : Fin 1) n)) (b2 (ix1 (0 : Fin 1))) := by
  rw [val_main_v31_apply, val_main_v28_apply, val_main_v30_apply, val_main_v29_apply, bidx30_ix]
  simp only [val_main_v27_apply, lidx28_ix, ridx28_ix, second_ix]
  rfl

end Cert.ReferenceIdeal.Row

end
-- ==== Proof.KPieces.lean ====
/-
  What each control case of the kernel body leaves behind, as values.

  The body has three cases. At the first feature tile of a batch tile it clears both accumulators and adds
  the tile's partial products; at a middle tile it adds the tile's partial products to what the tile before
  left; at the last tile it does the same and then runs the two small layers on the finished accumulators,
  storing the batch tile's outputs. Each accumulator is stored whole by one store whose value is the
  body's arithmetic on the loaded blocks, so what a case leaves in a buffer is that arithmetic applied to the
  blocks (and, after the first tile, to what the accumulator held).
-/
import proofs.«105220_j17549236372205_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- Every store and load of the body starts at the origin of its buffer: the offset pair is zero on both axes. -/
private theorem zero_offsets : (![0, 0] : Fin 2 → Nat) = fun _ => 0 := funext fun a => by fin_cases a <;> rfl

/-- First feature tile: the white accumulator is cleared, then the tile's products are added to the zeros. -/
theorem white_first (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S4x1024 .f32) (harg4 : arg4.IsWhole) (arg5 : Memref sig .tc .vmem S1024x1 .i32) (harg5 : arg5.IsWhole) (arg6 : Memref sig .tc .vmem S1x4 .f32) (harg6 : arg6.IsWhole) (arg7 : Memref sig .tc .vmem S8x8 .f32) (harg7 : arg7.IsWhole) (arg8 : Memref sig .tc .vmem S1x8 .f32) (harg8 : arg8.IsWhole) (arg9 : Memref sig .tc .vmem S1x8 .f32) (harg9 : arg9.IsWhole) (arg10 : Memref sig .tc .vmem S1x1 .f32) (harg10 : arg10.IsWhole) (arg11 : Memref sig .tc .vmem S1024x1 .f32) (harg11 : arg11.IsWhole) (arg12 : Memref sig .tc .vmem S1024x4 .f32) (harg12 : arg12.IsWhole) (arg13 : Memref sig .tc .vmem S1024x4 .f32) (harg13 : arg13.IsWhole) (hc0 : cond0_0 i) (hc1 : ¬cond0_1 i)
    (x0 : Vec F S1024x1024 .f32) (x1 : Vec F S1024x1024 .f32) (x2 : Vec F S4x1024 .f32) (x3 : Vec F S1024x1 .i32) (x4 : Vec F S1x4 .f32) (x5 : Vec F S8x8 .f32) (x6 : Vec F S1x8 .f32) (x7 : Vec F S1x8 .f32) (x8 : Vec F S1x1 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay4 x2 x0 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  -- two stores, each covering the accumulator: the later one's value is what is left, and the value it
  -- read back between them is the earlier store's zeros
  rw [View.canon_cons_unit_zero (S := S1024x4) zero_offsets, View.readCov_unit_zero (S := S1024x4) _ zero_offsets]
  simp only [View.readAt_eq_ld, harg2.read_unread, harg3.read_unread, harg4.read_unread, harg12.read_unread, harg13.read_unread,
    View.ld_unit_zero (S := S4x1024) zero_offsets, View.ld_unit_zero (S := S1024x1024) zero_offsets, View.ld_unit_zero (S := S1024x4) zero_offsets]

/-- First feature tile: the black accumulator, likewise. -/
theorem black_first (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S4x1024 .f32) (harg4 : arg4.IsWhole) (arg5 : Memref sig .tc .vmem S1024x1 .i32) (harg5 : arg5.IsWhole) (arg6 : Memref sig .tc .vmem S1x4 .f32) (harg6 : arg6.IsWhole) (arg7 : Memref sig .tc .vmem S8x8 .f32) (harg7 : arg7.IsWhole) (arg8 : Memref sig .tc .vmem S1x8 .f32) (harg8 : arg8.IsWhole) (arg9 : Memref sig .tc .vmem S1x8 .f32) (harg9 : arg9.IsWhole) (arg10 : Memref sig .tc .vmem S1x1 .f32) (harg10 : arg10.IsWhole) (arg11 : Memref sig .tc .vmem S1024x1 .f32) (harg11 : arg11.IsWhole) (arg12 : Memref sig .tc .vmem S1024x4 .f32) (harg12 : arg12.IsWhole) (arg13 : Memref sig .tc .vmem S1024x4 .f32) (harg13 : arg13.IsWhole) (hc0 : cond0_0 i) (hc1 : ¬cond0_1 i)
    (x0 : Vec F S1024x1024 .f32) (x1 : Vec F S1024x1024 .f32) (x2 : Vec F S4x1024 .f32) (x3 : Vec F S1024x1 .i32) (x4 : Vec F S1x4 .f32) (x5 : Vec F S8x8 .f32) (x6 : Vec F S1x8 .f32) (x7 : Vec F S1x8 .f32) (x8 : Vec F S1x1 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay5 x2 x1 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_cons_unit_zero (S := S1024x4) zero_offsets, View.readCov_unit_zero (S := S1024x4) _ zero_offsets]
  simp only [View.readAt_eq_ld, harg2.read_unread, harg3.read_unread, harg4.read_unread, harg12.read_unread, harg13.read_unread,
    View.ld_unit_zero (S := S4x1024) zero_offsets, View.ld_unit_zero (S := S1024x1024) zero_offsets, View.ld_unit_zero (S := S1024x4) zero_offsets]

/-- A middle feature tile: the tile's products are added to what the white accumulator held. -/
theorem white_middle (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S4x1024 .f32) (harg4 : arg4.IsWhole) (arg5 : Memref sig .tc .vmem S1024x1 .i32) (harg5 : arg5.IsWhole) (arg6 : Memref sig .tc .vmem S1x4 .f32) (harg6 : arg6.IsWhole) (arg7 : Memref sig .tc .vmem S8x8 .f32) (harg7 : arg7.IsWhole) (arg8 : Memref sig .tc .vmem S1x8 .f32) (harg8 : arg8.IsWhole) (arg9 : Memref sig .tc .vmem S1x8 .f32) (harg9 : arg9.IsWhole) (arg10 : Memref sig .tc .vmem S1x1 .f32) (harg10 : arg10.IsWhole) (arg11 : Memref sig .tc .vmem S1024x1 .f32) (harg11 : arg11.IsWhole) (arg12 : Memref sig .tc .vmem S1024x4 .f32) (harg12 : arg12.IsWhole) (arg13 : Memref sig .tc .vmem S1024x4 .f32) (harg13 : arg13.IsWhole) (hc0 : ¬cond0_0 i) (hc1 : ¬cond0_1 i)
    (x0 : Vec F S1024x1024 .f32) (x1 : Vec F S1024x1024 .f32) (x2 : Vec F S4x1024 .f32) (x3 : Vec F S1024x1 .i32) (x4 : Vec F S1x4 .f32) (x5 : Vec F S8x8 .f32) (x6 : Vec F S1x8 .f32) (x7 : Vec F S1x8 .f32) (x8 : Vec F S1x1 .f32) (xs0 : Vec F S1024x4 .f32) (xs1 : Vec F S1024x4 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay4 x2 x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_B
  dsimp only
  sl_unfold_words
  -- one store covering the accumulator leaves its value; each load reads a whole block
  rw [View.canon_unit_zero (S := S1024x4) zero_offsets]
  simp only [View.readAt_eq_ld, harg2.read_unread, harg3.read_unread, harg4.read_unread, harg12.read_unread, harg13.read_unread,
    View.ld_unit_zero (S := S4x1024) zero_offsets, View.ld_unit_zero (S := S1024x1024) zero_offsets, View.ld_unit_zero (S := S1024x4) zero_offsets]

/-- A middle feature tile: the black accumulator, likewise. -/
theorem black_middle (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S4x1024 .f32) (harg4 : arg4.IsWhole) (arg5 : Memref sig .tc .vmem S1024x1 .i32) (harg5 : arg5.IsWhole) (arg6 : Memref sig .tc .vmem S1x4 .f32) (harg6 : arg6.IsWhole) (arg7 : Memref sig .tc .vmem S8x8 .f32) (harg7 : arg7.IsWhole) (arg8 : Memref sig .tc .vmem S1x8 .f32) (harg8 : arg8.IsWhole) (arg9 : Memref sig .tc .vmem S1x8 .f32) (harg9 : arg9.IsWhole) (arg10 : Memref sig .tc .vmem S1x1 .f32) (harg10 : arg10.IsWhole) (arg11 : Memref sig .tc .vmem S1024x1 .f32) (harg11 : arg11.IsWhole) (arg12 : Memref sig .tc .vmem S1024x4 .f32) (harg12 : arg12.IsWhole) (arg13 : Memref sig .tc .vmem S1024x4 .f32) (harg13 : arg13.IsWhole) (hc0 : ¬cond0_0 i) (hc1 : ¬cond0_1 i)
    (x0 : Vec F S1024x1024 .f32) (x1 : Vec F S1024x1024 .f32) (x2 : Vec F S4x1024 .f32) (x3 : Vec F S1024x1 .i32) (x4 : Vec F S1x4 .f32) (x5 : Vec F S8x8 .f32) (x6 : Vec F S1x8 .f32) (x7 : Vec F S1x8 .f32) (x8 : Vec F S1x1 .f32) (xs0 : Vec F S1024x4 .f32) (xs1 : Vec F S1024x4 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay5 x2 x1 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_B
  dsimp only
  sl_unfold_words
  rw [View.canon_unit_zero (S := S1024x4) zero_offsets]
  simp only [View.readAt_eq_ld, harg2.read_unread, harg3.read_unread, harg4.read_unread, harg12.read_unread, harg13.read_unread,
    View.ld_unit_zero (S := S4x1024) zero_offsets, View.ld_unit_zero (S := S1024x1024) zero_offsets, View.ld_unit_zero (S := S1024x4) zero_offsets]

/-- The last feature tile: the white accumulator is updated as at a middle tile. -/
theorem white_last (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S4x1024 .f32) (harg4 : arg4.IsWhole) (arg5 : Memref sig .tc .vmem S1024x1 .i32) (harg5 : arg5.IsWhole) (arg6 : Memref sig .tc .vmem S1x4 .f32) (harg6 : arg6.IsWhole) (arg7 : Memref sig .tc .vmem S8x8 .f32) (harg7 : arg7.IsWhole) (arg8 : Memref sig .tc .vmem S1x8 .f32) (harg8 : arg8.IsWhole) (arg9 : Memref sig .tc .vmem S1x8 .f32) (harg9 : arg9.IsWhole) (arg10 : Memref sig .tc .vmem S1x1 .f32) (harg10 : arg10.IsWhole) (arg11 : Memref sig .tc .vmem S1024x1 .f32) (harg11 : arg11.IsWhole) (arg12 : Memref sig .tc .vmem S1024x4 .f32) (harg12 : arg12.IsWhole) (arg13 : Memref sig .tc .vmem S1024x4 .f32) (harg13 : arg13.IsWhole) (hc0 : ¬cond0_0 i) (hc1 : cond0_1 i)
    (x0 : Vec F S1024x1024 .f32) (x1 : Vec F S1024x1024 .f32) (x2 : Vec F S4x1024 .f32) (x3 : Vec F S1024x1 .i32) (x4 : Vec F S1x4 .f32) (x5 : Vec F S8x8 .f32) (x6 : Vec F S1x8 .f32) (x7 : Vec F S1x8 .f32) (x8 : Vec F S1x1 .f32) (xs0 : Vec F S1024x4 .f32) (xs1 : Vec F S1024x4 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay4 x2 x0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero (S := S1024x4) zero_offsets]
  simp only [View.readAt_eq_ld, harg2.read_unread, harg3.read_unread, harg4.read_unread, harg12.read_unread, harg13.read_unread,
    View.ld_unit_zero (S := S4x1024) zero_offsets, View.ld_unit_zero (S := S1024x1024) zero_offsets, View.ld_unit_zero (S := S1024x4) zero_offsets]

/-- The last feature tile: the black accumulator, likewise. -/
theorem black_last (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S4x1024 .f32) (harg4 : arg4.IsWhole) (arg5 : Memref sig .tc .vmem S1024x1 .i32) (harg5 : arg5.IsWhole) (arg6 : Memref sig .tc .vmem S1x4 .f32) (harg6 : arg6.IsWhole) (arg7 : Memref sig .tc .vmem S8x8 .f32) (harg7 : arg7.IsWhole) (arg8 : Memref sig .tc .vmem S1x8 .f32) (harg8 : arg8.IsWhole) (arg9 : Memref sig .tc .vmem S1x8 .f32) (harg9 : arg9.IsWhole) (arg10 : Memref sig .tc .vmem S1x1 .f32) (harg10 : arg10.IsWhole) (arg11 : Memref sig .tc .vmem S1024x1 .f32) (harg11 : arg11.IsWhole) (arg12 : Memref sig .tc .vmem S1024x4 .f32) (harg12 : arg12.IsWhole) (arg13 : Memref sig .tc .vmem S1024x4 .f32) (harg13 : arg13.IsWhole) (hc0 : ¬cond0_0 i) (hc1 : cond0_1 i)
    (x0 : Vec F S1024x1024 .f32) (x1 : Vec F S1024x1024 .f32) (x2 : Vec F S4x1024 .f32) (x3 : Vec F S1024x1 .i32) (x4 : Vec F S1x4 .f32) (x5 : Vec F S8x8 .f32) (x6 : Vec F S1x8 .f32) (x7 : Vec F S1x8 .f32) (x8 : Vec F S1x1 .f32) (xs0 : Vec F S1024x4 .f32) (xs1 : Vec F S1024x4 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay5 x2 x1 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  rw [View.canon_unit_zero (S := S1024x4) zero_offsets]
  simp only [View.readAt_eq_ld, harg2.read_unread, harg3.read_unread, harg4.read_unread, harg12.read_unread, harg13.read_unread,
    View.ld_unit_zero (S := S4x1024) zero_offsets, View.ld_unit_zero (S := S1024x1024) zero_offsets, View.ld_unit_zero (S := S1024x4) zero_offsets]

/-- The last feature tile: the output block is the two small layers applied to the two UPDATED accumulators. -/
theorem out_last (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S4x1024 .f32) (harg4 : arg4.IsWhole) (arg5 : Memref sig .tc .vmem S1024x1 .i32) (harg5 : arg5.IsWhole) (arg6 : Memref sig .tc .vmem S1x4 .f32) (harg6 : arg6.IsWhole) (arg7 : Memref sig .tc .vmem S8x8 .f32) (harg7 : arg7.IsWhole) (arg8 : Memref sig .tc .vmem S1x8 .f32) (harg8 : arg8.IsWhole) (arg9 : Memref sig .tc .vmem S1x8 .f32) (harg9 : arg9.IsWhole) (arg10 : Memref sig .tc .vmem S1x1 .f32) (harg10 : arg10.IsWhole) (arg11 : Memref sig .tc .vmem S1024x1 .f32) (harg11 : arg11.IsWhole) (arg12 : Memref sig .tc .vmem S1024x4 .f32) (harg12 : arg12.IsWhole) (arg13 : Memref sig .tc .vmem S1024x4 .f32) (harg13 : arg13.IsWhole) (hc0 : ¬cond0_0 i) (hc1 : cond0_1 i)
    (x0 : Vec F S1024x1024 .f32) (x1 : Vec F S1024x1024 .f32) (x2 : Vec F S4x1024 .f32) (x3 : Vec F S1024x1 .i32) (x4 : Vec F S1x4 .f32) (x5 : Vec F S8x8 .f32) (x6 : Vec F S1x8 .f32) (x7 : Vec F S1x8 .f32) (x8 : Vec F S1x1 .f32) (xs0 : Vec F S1024x4 .f32) (xs1 : Vec F S1024x4 .f32) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay6 (k0_pay7 (k0_pay4 x2 x0 xs0) x4 (k0_pay5 x2 x1 xs1) x4 x3 x5 x6) x7 x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  sl_unfold_words
  -- the output block's one covering store leaves its value; the two accumulators it was computed from were
  -- read back whole right after their covering stores, so they are those stores' values
  rw [View.canon_unit_zero (S := S1024x1) zero_offsets, View.readCov_unit_zero (S := S1024x4) arg12.view zero_offsets,
    View.readCov_unit_zero (S := S1024x4) arg13.view zero_offsets]
  simp only [View.readAt_eq_ld, harg2.read_unread, harg3.read_unread, harg4.read_unread, harg5.read_unread, harg6.read_unread,
    harg7.read_unread, harg8.read_unread, harg9.read_unread, harg10.read_unread, harg12.read_unread, harg13.read_unread,
    View.ld_unit_zero (S := S4x1024) zero_offsets, View.ld_unit_zero (S := S1024x1024) zero_offsets, View.ld_unit_zero (S := S1024x4) zero_offsets,
    View.ld_unit_zero (S := S1x4) zero_offsets, View.ld_unit_zero (S := S1024x1) zero_offsets, View.ld_unit_zero (S := S8x8) zero_offsets,
    View.ld_unit_zero (S := S1x8) zero_offsets, View.ld_unit_zero (S := S1x1) zero_offsets]

end Cert.KernelIdeal.Pieces

end
-- ==== Proof.KPay.lean ====
/-
  The kernel body's arithmetic read at one index, over the extended reals.

  A feature tile's update of an accumulator adds, at row `p` and output column `j`, the sum over the tile's
  1024 features of the feature block's entry (p, q) times the weight block's entry (j, q): the weight block
  is used transposed, and the changes of float format are the identity on the extended reals. The two small
  layers at row `p` are `Spec.rowOut` of that row's accumulators plus the first bias.
-/
import proofs.«105220_j17549236372205_1_alg».proof.Proof.Gen.KernelIdeal.Skeleton
import proofs.«105220_j17549236372205_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The cleared white accumulator holds the number zero everywhere. -/
theorem cleared_white (p : Fin 1024) (j : Fin 4) : k0_pay1 (F := Ideal) (ix2 p j) = 0 := by
  unfold k0_pay1
  exact (congrFun (shapeCast_self _ _) _).trans Ideal.ofBits_zero_f32

/-- The cleared black accumulator holds the number zero everywhere. -/
theorem cleared_black (p : Fin 1024) (j : Fin 4) : k0_pay2 (F := Ideal) (ix2 p j) = 0 := by
  unfold k0_pay2
  exact (congrFun (shapeCast_self _ _) _).trans Ideal.ofBits_zero_f32

/-! The feature product (a 1024×1024 block times a 1024×4 block): its operands' indices at output index `i` and contraction index `q` (rows of the left
    operand and columns of the right follow the output index; the left's columns and the right's rows follow `q`). -/
private theorem feat_l0 (i : S1024x4.Idx) (q : dot_S1024x1024_S1024x4_S1024x4_1_0_0_1_n_n.contr.Idx) : (dot_S1024x1024_S1024x4_S1024x4_1_0_0_1_n_n.lhsIdx i q 0).val = (i 0).val := by
  unfold DotDims.lhsIdx
  rw [dif_neg (show ¬(0 : Fin S1024x1024.rank) ∈ dot_S1024x1024_S1024x4_S1024x4_1_0_0_1_n_n.lhsBatch by decide), dif_pos (show (0 : Fin S1024x1024.rank) ∈ dot_S1024x1024_S1024x4_S1024x4_1_0_0_1_n_n.lhsNonContracting by decide)]
  rfl
private theorem feat_l1 (i : S1024x4.Idx) (q : dot_S1024x1024_S1024x4_S1024x4_1_0_0_1_n_n.contr.Idx) : (dot_S1024x1024_S1024x4_S1024x4_1_0_0_1_n_n.lhsIdx i q 1).val = (q ⟨0, by decide⟩).val :=
  dot_S1024x1024_S1024x4_S1024x4_1_0_0_1_n_n.lhsIdx_val_of_single rfl i q
private theorem feat_r0 (i : S1024x4.Idx) (q : dot_S1024x1024_S1024x4_S1024x4_1_0_0_1_n_n.contr.Idx) : (dot_S1024x1024_S1024x4_S1024x4_1_0_0_1_n_n.rhsIdx i q 0).val = (q ⟨0, by decide⟩).val :=
  dot_S1024x1024_S1024x4_S1024x4_1_0_0_1_n_n.rhsIdx_val_of_single rfl i q
private theorem feat_r1 (i : S1024x4.Idx) (q : dot_S1024x1024_S1024x4_S1024x4_1_0_0_1_n_n.contr.Idx) : (dot_S1024x1024_S1024x4_S1024x4_1_0_0_1_n_n.rhsIdx i q 1).val = (i 1).val := by
  unfold DotDims.rhsIdx
  rw [dif_neg (show ¬(1 : Fin S1024x4.rank) ∈ dot_S1024x1024_S1024x4_S1024x4_1_0_0_1_n_n.rhsBatch by decide), dif_pos (show (1 : Fin S1024x4.rank) ∈ dot_S1024x1024_S1024x4_S1024x4_1_0_0_1_n_n.rhsNonContracting by decide)]
  rfl

/-- The feature product (a 1024×1024 block times a 1024×4 block) into a zero accumulator, at row `p` and column `j`: the sum over the 1024 contraction positions
    of the left operand's entry (p, q) times the right operand's entry (q, j). -/
private theorem feat_matmul (A : FVec Ideal S1024x1024 .bf16) (B : FVec Ideal S1024x4 .bf16) (p : Fin 1024) (j : Fin 4) :
    matmul dot_S1024x1024_S1024x4_S1024x4_1_0_0_1_n_n none A B (constant (F := Ideal) S1024x4 .f32 0x00000000#32) (ix2 p j)
      = ∑ q : Fin 1024, A (ix2 p q) * B (ix2 q j) := by
  simp only [matmul]
  rw [Ideal.matmul_constant_zero_apply, ← Equiv.sum_comp (contrEquiv1 dot_S1024x1024_S1024x4_S1024x4_1_0_0_1_n_n 1024 rfl rfl).symm]
  refine Finset.sum_congr rfl fun k _ => ?_
  have hk := contrEquiv1_symm_val dot_S1024x1024_S1024x4_S1024x4_1_0_0_1_n_n 1024 rfl rfl k
  have el : dot_S1024x1024_S1024x4_S1024x4_1_0_0_1_n_n.lhsIdx (ix2 p j) ((contrEquiv1 dot_S1024x1024_S1024x4_S1024x4_1_0_0_1_n_n 1024 rfl rfl).symm k) = ix2 p k := funext fun a => Fin.ext (by
    match a with
    | ⟨0, _⟩ => exact feat_l0 _ _
    | ⟨1, _⟩ => exact (feat_l1 _ _).trans hk)
  have er : dot_S1024x1024_S1024x4_S1024x4_1_0_0_1_n_n.rhsIdx (ix2 p j) ((contrEquiv1 dot_S1024x1024_S1024x4_S1024x4_1_0_0_1_n_n 1024 rfl rfl).symm k) = ix2 k j := funext fun a => Fin.ext (by
    match a with
    | ⟨0, _⟩ => exact (feat_r0 _ _).trans hk
    | ⟨1, _⟩ => exact feat_r1 _ _)
  rw [el, er]

/-- One feature tile's update of the white accumulator, at row `p` and column `j`: what it held plus the tile's
    1024 products of the row's features with the column's weights. -/
theorem update_white (w0 : Vec Ideal S4x1024 .f32) (x : Vec Ideal S1024x1024 .f32) (acc : Vec Ideal S1024x4 .f32)
    (p : Fin 1024) (j : Fin 4) :
    k0_pay4 (F := Ideal) w0 x acc (ix2 p j) = acc (ix2 p j) + ∑ q : Fin 1024, x (ix2 p q) * w0 (ix2 j q) := by
  unfold k0_pay4 k0_pay3
  refine (congrFun (shapeCast_self _ _) _).trans ?_
  refine congrArg (acc (ix2 p j) + ·) ?_
  refine (feat_matmul _ _ p j).trans ?_
  refine Finset.sum_congr rfl fun q _ => ?_
  exact congrArg (x (ix2 p q) * ·) (transpose_ix2_apply _ _ q j)

/-- One feature tile's update of the black accumulator: the same expression. -/
theorem update_black (w0 : Vec Ideal S4x1024 .f32) (x : Vec Ideal S1024x1024 .f32) (acc : Vec Ideal S1024x4 .f32)
    (p : Fin 1024) (j : Fin 4) :
    k0_pay5 (F := Ideal) w0 x acc (ix2 p j) = acc (ix2 p j) + ∑ q : Fin 1024, x (ix2 p q) * w0 (ix2 j q) := by
  unfold k0_pay5 k0_pay3
  refine (congrFun (shapeCast_self _ _) _).trans ?_
  refine congrArg (acc (ix2 p j) + ·) ?_
  refine (feat_matmul _ _ p j).trans ?_
  refine Finset.sum_congr rfl fun q _ => ?_
  exact congrArg (x (ix2 p q) * ·) (transpose_ix2_apply _ _ q j)

/-! The first small layer's product (a 1024×8 block times an 8×8 block): its operands' indices at output index `i` and contraction index `q` (rows of the left
    operand and columns of the right follow the output index; the left's columns and the right's rows follow `q`). -/
private theorem hid_l0 (i : S1024x8.Idx) (q : dot_S1024x8_S8x8_S1024x8_1_0_0_1_n_n.contr.Idx) : (dot_S1024x8_S8x8_S1024x8_1_0_0_1_n_n.lhsIdx i q 0).val = (i 0).val := by
  unfold DotDims.lhsIdx
  rw [dif_neg (show ¬(0 : Fin S1024x8.rank) ∈ dot_S1024x8_S8x8_S1024x8_1_0_0_1_n_n.lhsBatch by decide), dif_pos (show (0 : Fin S1024x8.rank) ∈ dot_S1024x8_S8x8_S1024x8_1_0_0_1_n_n.lhsNonContracting by decide)]
  rfl
private theorem hid_l1 (i : S1024x8.Idx) (q : dot_S1024x8_S8x8_S1024x8_1_0_0_1_n_n.contr.Idx) : (dot_S1024x8_S8x8_S1024x8_1_0_0_1_n_n.lhsIdx i q 1).val = (q ⟨0, by decide⟩).val :=
  dot_S1024x8_S8x8_S1024x8_1_0_0_1_n_n.lhsIdx_val_of_single rfl i q
private theorem hid_r0 (i : S1024x8.Idx) (q : dot_S1024x8_S8x8_S1024x8_1_0_0_1_n_n.contr.Idx) : (dot_S1024x8_S8x8_S1024x8_1_0_0_1_n_n.rhsIdx i q 0).val = (q ⟨0, by decide⟩).val :=
  dot_S1024x8_S8x8_S1024x8_1_0_0_1_n_n.rhsIdx_val_of_single rfl i q
private theorem hid_r1 (i : S1024x8.Idx) (q : dot_S1024x8_S8x8_S1024x8_1_0_0_1_n_n.contr.Idx) : (dot_S1024x8_S8x8_S1024x8_1_0_0_1_n_n.rhsIdx i q 1).val = (i 1).val := by
  unfold DotDims.rhsIdx
  rw [dif_neg (show ¬(1 : Fin S8x8.rank) ∈ dot_S1024x8_S8x8_S1024x8_1_0_0_1_n_n.rhsBatch by decide), dif_pos (show (1 : Fin S8x8.rank) ∈ dot_S1024x8_S8x8_S1024x8_1_0_0_1_n_n.rhsNonContracting by decide)]
  rfl

/-- The first small layer's product (a 1024×8 block times an 8×8 block) into a zero accumulator, at row `p` and column `j`: the sum over the 8 contraction positions
    of the left operand's entry (p, q) times the right operand's entry (q, j). -/
private theorem hid_matmul (A : FVec Ideal S1024x8 .bf16) (B : FVec Ideal S8x8 .bf16) (p : Fin 1024) (j : Fin 8) :
    matmul dot_S1024x8_S8x8_S1024x8_1_0_0_1_n_n none A B (constant (F := Ideal) S1024x8 .f32 0x00000000#32) (ix2 p j)
      = ∑ q : Fin 8, A (ix2 p q) * B (ix2 q j) := by
  simp only [matmul]
  rw [Ideal.matmul_constant_zero_apply, ← Equiv.sum_comp (contrEquiv1 dot_S1024x8_S8x8_S1024x8_1_0_0_1_n_n 8 rfl rfl).symm]
  refine Finset.sum_congr rfl fun k _ => ?_
  have hk := contrEquiv1_symm_val dot_S1024x8_S8x8_S1024x8_1_0_0_1_n_n 8 rfl rfl k
  have el : dot_S1024x8_S8x8_S1024x8_1_0_0_1_n_n.lhsIdx (ix2 p j) ((contrEquiv1 dot_S1024x8_S8x8_S1024x8_1_0_0_1_n_n 8 rfl rfl).symm k) = ix2 p k := funext fun a => Fin.ext (by
    match a with
    | ⟨0, _⟩ => exact hid_l0 _ _
    | ⟨1, _⟩ => exact (hid_l1 _ _).trans hk)
  have er : dot_S1024x8_S8x8_S1024x8_1_0_0_1_n_n.rhsIdx (ix2 p j) ((contrEquiv1 dot_S1024x8_S8x8_S1024x8_1_0_0_1_n_n 8 rfl rfl).symm k) = ix2 k j := funext fun a => Fin.ext (by
    match a with
    | ⟨0, _⟩ => exact (hid_r0 _ _).trans hk
    | ⟨1, _⟩ => exact hid_r1 _ _)
  rw [el, er]

/-! The output layer's product (a 1024×8 block times an 8×1 block): its operands' indices at output index `i` and contraction index `q` (rows of the left
    operand and columns of the right follow the output index; the left's columns and the right's rows follow `q`). -/
private theorem out_l0 (i : S1024x1.Idx) (q : dot_S1024x8_S8x1_S1024x1_1_0_0_1_n_n.contr.Idx) : (dot_S1024x8_S8x1_S1024x1_1_0_0_1_n_n.lhsIdx i q 0).val = (i 0).val := by
  unfold DotDims.lhsIdx
  rw [dif_neg (show ¬(0 : Fin S1024x8.rank) ∈ dot_S1024x8_S8x1_S1024x1_1_0_0_1_n_n.lhsBatch by decide), dif_pos (show (0 : Fin S1024x8.rank) ∈ dot_S1024x8_S8x1_S1024x1_1_0_0_1_n_n.lhsNonContracting by decide)]
  rfl
private theorem out_l1 (i : S1024x1.Idx) (q : dot_S1024x8_S8x1_S1024x1_1_0_0_1_n_n.contr.Idx) : (dot_S1024x8_S8x1_S1024x1_1_0_0_1_n_n.lhsIdx i q 1).val = (q ⟨0, by decide⟩).val :=
  dot_S1024x8_S8x1_S1024x1_1_0_0_1_n_n.lhsIdx_val_of_single rfl i q
private theorem out_r0 (i : S1024x1.Idx) (q : dot_S1024x8_S8x1_S1024x1_1_0_0_1_n_n.contr.Idx) : (dot_S1024x8_S8x1_S1024x1_1_0_0_1_n_n.rhsIdx i q 0).val = (q ⟨0, by decide⟩).val :=
  dot_S1024x8_S8x1_S1024x1_1_0_0_1_n_n.rhsIdx_val_of_single rfl i q
private theorem out_r1 (i : S1024x1.Idx) (q : dot_S1024x8_S8x1_S1024x1_1_0_0_1_n_n.contr.Idx) : (dot_S1024x8_S8x1_S1024x1_1_0_0_1_n_n.rhsIdx i q 1).val = (i 1).val := by
  unfold DotDims.rhsIdx
  rw [dif_neg (show ¬(1 : Fin S8x1.rank) ∈ dot_S1024x8_S8x1_S1024x1_1_0_0_1_n_n.rhsBatch by decide), dif_pos (show (1 : Fin S8x1.rank) ∈ dot_S1024x8_S8x1_S1024x1_1_0_0_1_n_n.rhsNonContracting by decide)]
  rfl

/-- The output layer's product (a 1024×8 block times an 8×1 block) into a zero accumulator, at row `p` and column `j`: the sum over the 8 contraction positions
    of the left operand's entry (p, q) times the right operand's entry (q, j). -/
private theorem out_matmul (A : FVec Ideal S1024x8 .bf16) (B : FVec Ideal S8x1 .bf16) (p : Fin 1024) (j : Fin 1) :
    matmul dot_S1024x8_S8x1_S1024x1_1_0_0_1_n_n none A B (constant (F := Ideal) S1024x1 .f32 0x00000000#32) (ix2 p j)
      = ∑ q : Fin 8, A (ix2 p q) * B (ix2 q j) := by
  simp only [matmul]
  rw [Ideal.matmul_constant_zero_apply, ← Equiv.sum_comp (contrEquiv1 dot_S1024x8_S8x1_S1024x1_1_0_0_1_n_n 8 rfl rfl).symm]
  refine Finset.sum_congr rfl fun k _ => ?_
  have hk := contrEquiv1_symm_val dot_S1024x8_S8x1_S1024x1_1_0_0_1_n_n 8 rfl rfl k
  have el : dot_S1024x8_S8x1_S1024x1_1_0_0_1_n_n.lhsIdx (ix2 p j) ((contrEquiv1 dot_S1024x8_S8x1_S1024x1_1_0_0_1_n_n 8 rfl rfl).symm k) = ix2 p k := funext fun a => Fin.ext (by
    match a with
    | ⟨0, _⟩ => exact out_l0 _ _
    | ⟨1, _⟩ => exact (out_l1 _ _).trans hk)
  have er : dot_S1024x8_S8x1_S1024x1_1_0_0_1_n_n.rhsIdx (ix2 p j) ((contrEquiv1 dot_S1024x8_S8x1_S1024x1_1_0_0_1_n_n 8 rfl rfl).symm k) = ix2 k j := funext fun a => Fin.ext (by
    match a with
    | ⟨0, _⟩ => exact (out_r0 _ _).trans hk
    | ⟨1, _⟩ => exact out_r1 _ _)
  rw [el, er]

/-- A column broadcast along the rows' eight positions reads, at (p, k), the column's entry of row `p`. -/
private theorem col_apply (T : FVec Ideal S1024x1 .f32) (p : Fin 1024) (k : Fin 8) :
    broadcastTo S1024x8 T broadcasts_S1024x1_S1024x8 (ix2 p k) = T (ix2 p (0 : Fin 1)) := by
  refine broadcastTo_apply T _ (ix2 p k) (ix2 p (0 : Fin 1)) fun ax => ?_
  match ax with
  | ⟨0, _⟩ =>
    show p.val = if (1024 : ℕ) = 1 then 0 else p.val
    rw [if_neg (by decide)]
  | ⟨1, _⟩ =>
    show (0 : ℕ) = if (1 : ℕ) = 1 then 0 else k.val
    rw [if_pos rfl]

/-- Two four-column blocks side by side read, at (p, k), as `Spec.cat` of the two blocks' rows `p`: positions 0–3 come
    from the first block, positions 4–7 from the second at column k − 4. -/
private theorem cat_apply (u v : FVec Ideal S1024x4 .f32) (p : Fin 1024) (k : Fin 8) (w b : Fin 4 → EReal)
    (hu : ∀ j, u (ix2 p j) = w j) (hv : ∀ j, v (ix2 p j) = b j) :
    concatenate S1024x8 1 [⟨S1024x4, u⟩, ⟨S1024x4, v⟩] concatenates_S1024x4_S1024x4_S1024x8_d1 (ix2 p k) = Spec.cat w b k := by
  unfold Spec.cat
  by_cases h : k.val < 4
  · rw [dif_pos h]
    refine (concatenate_pair_apply_left (1 : Fin S1024x8.rank) u v _ (ix2 p k) rfl (ix2 p ⟨k.val, h⟩) fun c => ?_).trans (hu _)
    match c with
    | ⟨0, _⟩ => rfl
    | ⟨1, _⟩ => rfl
  · rw [dif_neg h]
    have hk := k.isLt
    refine (concatenate_pair_apply_right (1 : Fin S1024x8.rank) u v _ (ix2 p k) rfl rfl
      (ix2 p (⟨k.val - 4, by omega⟩ : Fin 4)) (fun c hc => ?_) ?_).trans (hv _)
    · match c with
      | ⟨0, _⟩ => rfl
      | ⟨1, _⟩ => exact absurd rfl hc
    · show k.val - 4 + 4 = k.val
      omega

/-- The two-sided clip as the kernel applies it to an eight-column block (lower bound first, then the upper, then a
    change of float format, which is the identity on the extended reals), at one index: `Spec.clip` of the entry. -/
private theorem clip_apply (z : FVec Ideal S1024x8 .f32) (i : S1024x8.Idx) :
    (truncf .bf16 (minimumf (broadcast S1024x8 (Scalar.ofBits (F := Ideal) .f32 0x3F800000#32))
      (maximumf (broadcast S1024x8 (Scalar.ofBits (F := Ideal) .f32 0x00000000#32)) z)) bitsLt_bf16_f32 : FVec Ideal S1024x8 .bf16) i
      = Spec.clip (z i) := rfl

/-- An accumulator with the first bias added along its rows, at (p, j). -/
private theorem bias_apply (a : FVec Ideal S1024x4 .f32) (b0 : FVec Ideal S1x4 .f32) (p : Fin 1024) (j : Fin 4) :
    (addf a (broadcastTo S1024x4 (shapeCast S1x4 b0 shapeCasts_S1x4_S1x4) broadcasts_S1x4_S1024x4) : FVec Ideal S1024x4 .f32) (ix2 p j)
      = a (ix2 p j) + b0 (ix2 (0 : Fin 1) j) :=
  congrArg (a (ix2 p j) + ·) ((broadcastTo_1b_ab_apply _ _ p j).trans (congrFun (shapeCast_self _ _) _))

/-- The two accumulators mixed by the side to move, at (p, k), before the clip: with `t` the row's side to move and
    `w`, `b` the row's two biased accumulators, `t · [w | b] k + (1 − t) · [b | w] k`. -/
private theorem mix_apply (u v : FVec Ideal S1024x4 .f32) (T : FVec Ideal S1024x1 .f32) (p : Fin 1024) (k : Fin 8)
    (t : EReal) (w b : Fin 4 → EReal) (ht : T (ix2 p (0 : Fin 1)) = t) (hu : ∀ j, u (ix2 p j) = w j) (hv : ∀ j, v (ix2 p j) = b j) :
    (addf
      (mulf (broadcastTo S1024x8 T broadcasts_S1024x1_S1024x8)
        (concatenate S1024x8 1 [⟨S1024x4, u⟩, ⟨S1024x4, v⟩] concatenates_S1024x4_S1024x4_S1024x8_d1))
      (mulf (broadcastTo S1024x8 (subf (broadcast S1024x1 (Scalar.ofBits (F := Ideal) .f32 0x3F800000#32)) T) broadcasts_S1024x1_S1024x8)
        (concatenate S1024x8 1 [⟨S1024x4, v⟩, ⟨S1024x4, u⟩] concatenates_S1024x4_S1024x4_S1024x8_d1))
      : FVec Ideal S1024x8 .f32) (ix2 p k)
      = t * Spec.cat w b k + (Spec.one - t) * Spec.cat b w k := by
  refine (addf_apply _ _ _).trans (congrArg₂ (· + ·) ?_ ?_)
  · refine (mulf_apply _ _ _).trans (congrArg₂ (· * ·) ((col_apply _ p k).trans ht) (cat_apply u v p k w b hu hv))
  · refine (mulf_apply _ _ _).trans (congrArg₂ (· * ·) ((col_apply _ p k).trans ?_) (cat_apply v u p k b w hv hu))
    exact congrArg (Spec.one - ·) ht

/-- The first small layer at (p, n): the clipped sum over the eight mixed numbers of row `p` times the layer's weights
    (n, k), plus the layer's bias at n. The layer's weight block is used transposed. -/
private theorem first_layer (accW accB : Vec Ideal S1024x4 .f32) (turn : Vec Ideal S1024x1 .i32) (b0 : Vec Ideal S1x4 .f32)
    (W1 : Vec Ideal S8x8 .f32) (b1 : Vec Ideal S1x8 .f32) (p : Fin 1024) (n : Fin 8) :
    k0_pay7 (F := Ideal) accW b0 accB b0 turn W1 b1 (ix2 p n)
      = Spec.clip ((∑ k : Fin 8, Spec.hidden (FloatOps.sitofp (F := Ideal) .f32 (turn (ix2 p (0 : Fin 1))))
            (fun j => accW (ix2 p j) + b0 (ix2 (0 : Fin 1) j)) (fun j => accB (ix2 p j) + b0 (ix2 (0 : Fin 1) j)) k * W1 (ix2 n k))
          + b1 (ix2 (0 : Fin 1) n)) := by
  unfold k0_pay7
  refine (clip_apply _ _).trans (congrArg Spec.clip ?_)
  refine (addf_apply _ _ _).trans (congrArg₂ (· + ·) ?_ ?_)
  · refine (hid_matmul _ _ p n).trans (Finset.sum_congr rfl fun k _ => congrArg₂ (· * ·) ?_ ?_)
    · unfold Spec.hidden
      refine (clip_apply _ _).trans (congrArg Spec.clip ?_)
      exact mix_apply _ _ _ p k _ _ _ rfl (fun j => bias_apply accW b0 p j) (fun j => bias_apply accB b0 p j)
    · exact transpose_ix2_apply _ _ k n
  · exact (broadcastTo_1b_ab_apply _ _ p n).trans (congrFun (shapeCast_self _ _) _)

/-- The two small layers on a batch tile, at row `p`: the row's output as `Spec.rowOut` of the row's two finished
    accumulators plus the first bias, the row's side to move, and the layers' weights and biases. -/
theorem layers (accW accB : Vec Ideal S1024x4 .f32) (turn : Vec Ideal S1024x1 .i32) (b0 : Vec Ideal S1x4 .f32)
    (W1 : Vec Ideal S8x8 .f32) (b1 : Vec Ideal S1x8 .f32) (W2 : Vec Ideal S1x8 .f32) (b2 : Vec Ideal S1x1 .f32) (p : Fin 1024) :
    k0_pay6 (F := Ideal) (k0_pay7 (F := Ideal) accW b0 accB b0 turn W1 b1) W2 b2 (ix2 p (0 : Fin 1))
      = Cert.Spec.rowOut (FloatOps.sitofp (F := Ideal) .f32 (turn (ix2 p (0 : Fin 1))))
          (fun j => accW (ix2 p j) + b0 (ix2 (0 : Fin 1) j)) (fun j => accB (ix2 p j) + b0 (ix2 (0 : Fin 1) j))
          (fun n k => W1 (ix2 n k)) (fun n => b1 (ix2 (0 : Fin 1) n)) (fun n => W2 (ix2 (0 : Fin 1) n)) (b2 (ix2 (0 : Fin 1) (0 : Fin 1))) := by
  unfold k0_pay6 Spec.rowOut
  refine (addf_apply _ _ _).trans (congrArg₂ (· + ·) ?_ ?_)
  · refine (out_matmul _ _ p 0).trans (Finset.sum_congr rfl fun n _ => congrArg₂ (· * ·) ?_ ?_)
    · exact first_layer accW accB turn b0 W1 b1 p n
    · exact transpose_ix2_apply _ _ n 0
  · exact (broadcastTo_1b_ab_apply _ _ p 0).trans (congrFun (shapeCast_self _ _) _)

end Cert.KernelIdeal.Pay

end
-- ==== Proof.KAcc.lean ====
/-
  What the two accumulators hold after each grid point.

  Grid point `t` belongs to batch tile `t / 80` and is that tile's feature tile `t % 80`. The first point of a batch tile
  stores zeros and adds its 1024 products per entry; each later point adds its products to what the point before left.
  So after point `t` an entry holds zero plus the sum, over the feature tiles `0 … t % 80` of the batch tile, of that
  tile's products: a finite sum indexed by a range of naturals, with no order of summation left to speak of.
-/
import proofs.«105220_j17549236372205_1_alg».proof.Proof.Gen.KernelIdeal.Value
import proofs.«105220_j17549236372205_1_alg».proof.Proof.KPieces
import proofs.«105220_j17549236372205_1_alg».proof.Proof.KPay
import Idealize.ShloMosaic.Lib.Pipeline.Value
import Idealize.ShloMosaic.Lib.ValueIdx

noncomputable section

namespace Cert.KernelIdeal.Acc

open Cert.KernelIdeal Cert.KernelIdeal.Gen Idealize.ShloMosaic Idealize.ShloMosaic.TcCoe Idealize.SL.Sem Idealize.ShloMosaic.ValueIdx

/-- One feature tile's products for row `p` and column `j`: over the tile's 1024 features, the feature block's entry
    (p, q) times the weight block's entry (j, q). -/
def tile (x : Vec Ideal S1024x1024 .f32) (w0 : Vec Ideal S4x1024 .f32) (p : Fin 1024) (j : Fin 4) : EReal :=
  ∑ q : Fin 1024, x (ix2 p q) * w0 (ix2 j q)

variable (m : (ℓ : Loc nD τ sig) → Buf (Elt Ideal) ℓ)

/-- The products grid point `n` adds to the white accumulator at row `p` and column `j`. (Zero past the grid, where it is never used.) -/
def tileW (c : Dev nD) (n : ℕ) (p : Fin 1024) (j : Fin 4) : EReal :=
  if h : n < cfg0.N then tile (iblk m c 0 ⟨n, h⟩) (iblk m c 2 ⟨n, h⟩) p j else 0

/-- The same, at an index of the accumulator. -/
def addW (c : Dev nD) (n : ℕ) (i : S1024x4.Idx) : EReal := tileW m c n (i 0) (i 1)

/-- What the white accumulator holds after grid point `t`: zero plus the products of the points of `t`'s batch tile up to
    `t` — the first point of a batch tile clears the accumulator before adding, every later one adds to what it finds. -/
theorem white_after (c : Dev nD) (t : Fin cfg0.N) (p : Fin 1024) (j : Fin 4) :
    (outsAt0 m c t.val t.isLt).2.1 (ix2 p j)
      = 0 + ∑ s ∈ Finset.range (t.val % 80 + 1), tileW m c (80 * (t.val / 80) + s) p j := by
  have hN : cfg0.N = 160 := N_0
  have ht : t.val < 160 := lt_of_lt_of_eq t.isLt hN
  rw [Value.soutsAt0_0_eq m c t]
  refine (Pipeline.accAt_add_apply (ι := S1024x4.Idx) (β := EReal)
    (fun n h => Value.scAt0_0 m c n h (VS0_0.read (Elt Ideal) VS0_0.junk)) (Value.scAt0_0 m c)
    (fun _ => (0 : EReal)) (addW m c) (80 * (t.val / 80)) 79 ?_ ?_ (t.val % 80) (by omega) _ (ix2 p j)).trans rfl
  · intro h i
    obtain ⟨p, j, rfl⟩ : ∃ (p : Fin 1024) (j : Fin 4), i = ix2 p j := ⟨i 0, i 1, eq_ix2 i⟩
    have h0 : (80 * (t.val / 80)) % 80 = 0 := Nat.mul_mod_right _ _
    have h1 : ¬(80 * (t.val / 80)) % 80 = 79 := by omega
    unfold Value.scAt0_0
    rw [dif_pos h0, dif_neg h1]
    refine (congrFun (Pieces.white_first (F := Ideal) c (grid0.coords ⟨80 * (t.val / 80), h⟩) (ms0_0 ⟨80 * (t.val / 80), h⟩) (hs0_0 ⟨80 * (t.val / 80), h⟩) (ms0_1 ⟨80 * (t.val / 80), h⟩) (hs0_1 ⟨80 * (t.val / 80), h⟩) (ms0_2 ⟨80 * (t.val / 80), h⟩) (hs0_2 ⟨80 * (t.val / 80), h⟩) (ms0_3 ⟨80 * (t.val / 80), h⟩) (hs0_3 ⟨80 * (t.val / 80), h⟩) (ms0_4 ⟨80 * (t.val / 80), h⟩) (hs0_4 ⟨80 * (t.val / 80), h⟩) (ms0_5 ⟨80 * (t.val / 80), h⟩) (hs0_5 ⟨80 * (t.val / 80), h⟩) (ms0_6 ⟨80 * (t.val / 80), h⟩) (hs0_6 ⟨80 * (t.val / 80), h⟩) (ms0_7 ⟨80 * (t.val / 80), h⟩) (hs0_7 ⟨80 * (t.val / 80), h⟩) (ms0_8 ⟨80 * (t.val / 80), h⟩) (hs0_8 ⟨80 * (t.val / 80), h⟩) (ms0_9 ⟨80 * (t.val / 80), h⟩) (hs0_9 ⟨80 * (t.val / 80), h⟩) scM0_0 (Memref.isWhole_whole _) scM0_1 (Memref.isWhole_whole _) ((hcond0_0 ⟨80 * (t.val / 80), h⟩).mpr h0) (fun hh => h1 ((hcond0_1 ⟨80 * (t.val / 80), h⟩).mp hh)) (iblk m c 0 ⟨80 * (t.val / 80), h⟩) (iblk m c 1 ⟨80 * (t.val / 80), h⟩) (iblk m c 2 ⟨80 * (t.val / 80), h⟩) (iblk m c 3 ⟨80 * (t.val / 80), h⟩) (iblk m c 4 ⟨80 * (t.val / 80), h⟩) (iblk m c 5 ⟨80 * (t.val / 80), h⟩) (iblk m c 6 ⟨80 * (t.val / 80), h⟩) (iblk m c 7 ⟨80 * (t.val / 80), h⟩) (iblk m c 8 ⟨80 * (t.val / 80), h⟩)) (ix2 p j)).trans ?_
    refine (Pay.update_white (iblk m c 2 ⟨80 * (t.val / 80), h⟩) (iblk m c 0 ⟨80 * (t.val / 80), h⟩) (k0_pay1 (F := Ideal)) p j).trans ?_
    rw [Pay.cleared_white]
    show (0 : EReal) + _ = 0 + tileW m c _ p j
    unfold tileW
    rw [dif_pos h]
    rfl
  · intro n h acc i hlo hhi
    obtain ⟨p, j, rfl⟩ : ∃ (p : Fin 1024) (j : Fin 4), i = ix2 p j := ⟨i 0, i 1, eq_ix2 i⟩
    have h0 : ¬n % 80 = 0 := by omega
    have e : tileW m c n p j = tile (iblk m c 0 ⟨n, h⟩) (iblk m c 2 ⟨n, h⟩) p j := by
      unfold tileW; rw [dif_pos h]
    show _ = acc (ix2 p j) + tileW m c n p j
    rw [e]
    unfold Value.scAt0_0
    rw [dif_neg h0]
    by_cases h1 : n % 80 = 79
    · rw [dif_pos h1]
      refine (congrFun (Pieces.white_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) (iblk m c 8 ⟨n, h⟩) acc (outsAt0 m c ((⟨n, h⟩ : Fin cfg0.N).val - 1) (Nat.lt_of_le_of_lt (Nat.sub_le _ _) (⟨n, h⟩ : Fin cfg0.N).isLt)).2.2) (ix2 p j)).trans ?_
      exact Pay.update_white (iblk m c 2 ⟨n, h⟩) (iblk m c 0 ⟨n, h⟩) acc p j
    · rw [dif_neg h1]
      refine (congrFun (Pieces.white_middle (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) scM0_0 (Memref.isWhole_whole _) scM0_1 (Memref.isWhole_whole _) (fun hh => h0 ((hcond0_0 ⟨n, h⟩).mp hh)) (fun hh => h1 ((hcond0_1 ⟨n, h⟩).mp hh)) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) (iblk m c 8 ⟨n, h⟩) acc (outsAt0 m c ((⟨n, h⟩ : Fin cfg0.N).val - 1) (Nat.lt_of_le_of_lt (Nat.sub_le _ _) (⟨n, h⟩ : Fin cfg0.N).isLt)).2.2) (ix2 p j)).trans ?_
      exact Pay.update_white (iblk m c 2 ⟨n, h⟩) (iblk m c 0 ⟨n, h⟩) acc p j

/-- At the last point of a batch tile the body updates the white accumulator first and feeds the UPDATED accumulator to the
    small layers; that updated value is what the accumulator holds after the point. -/
theorem white_updated (c : Dev nD) (t : Fin cfg0.N) (h0 : ¬t.val % 80 = 0) (h1 : t.val % 80 = 79) :
    (outsAt0 m c t.val t.isLt).2.1
      = k0_pay4 (F := Ideal) (iblk m c 2 t) (iblk m c 0 t) (outsAt0 m c (t.val - 1) (Nat.lt_of_le_of_lt (Nat.sub_le _ _) t.isLt)).2.1 := by
  have e := congrArg (fun z => z.2.1) (outsAt0_C m c t h0 h1)
  dsimp only at e
  rw [e]
  exact Pieces.white_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2

/-- The products grid point `n` adds to the black accumulator at row `p` and column `j`. (Zero past the grid, where it is never used.) -/
def tileB (c : Dev nD) (n : ℕ) (p : Fin 1024) (j : Fin 4) : EReal :=
  if h : n < cfg0.N then tile (iblk m c 1 ⟨n, h⟩) (iblk m c 2 ⟨n, h⟩) p j else 0

/-- The same, at an index of the accumulator. -/
def addB (c : Dev nD) (n : ℕ) (i : S1024x4.Idx) : EReal := tileB m c n (i 0) (i 1)

/-- What the black accumulator holds after grid point `t`: zero plus the products of the points of `t`'s batch tile up to
    `t` — the first point of a batch tile clears the accumulator before adding, every later one adds to what it finds. -/
theorem black_after (c : Dev nD) (t : Fin cfg0.N) (p : Fin 1024) (j : Fin 4) :
    (outsAt0 m c t.val t.isLt).2.2 (ix2 p j)
      = 0 + ∑ s ∈ Finset.range (t.val % 80 + 1), tileB m c (80 * (t.val / 80) + s) p j := by
  have hN : cfg0.N = 160 := N_0
  have ht : t.val < 160 := lt_of_lt_of_eq t.isLt hN
  rw [Value.soutsAt0_1_eq m c t]
  refine (Pipeline.accAt_add_apply (ι := S1024x4.Idx) (β := EReal)
    (fun n h => Value.scAt0_1 m c n h (VS0_1.read (Elt Ideal) VS0_1.junk)) (Value.scAt0_1 m c)
    (fun _ => (0 : EReal)) (addB m c) (80 * (t.val / 80)) 79 ?_ ?_ (t.val % 80) (by omega) _ (ix2 p j)).trans rfl
  · intro h i
    obtain ⟨p, j, rfl⟩ : ∃ (p : Fin 1024) (j : Fin 4), i = ix2 p j := ⟨i 0, i 1, eq_ix2 i⟩
    have h0 : (80 * (t.val / 80)) % 80 = 0 := Nat.mul_mod_right _ _
    have h1 : ¬(80 * (t.val / 80)) % 80 = 79 := by omega
    unfold Value.scAt0_1
    rw [dif_pos h0, dif_neg h1]
    refine (congrFun (Pieces.black_first (F := Ideal) c (grid0.coords ⟨80 * (t.val / 80), h⟩) (ms0_0 ⟨80 * (t.val / 80), h⟩) (hs0_0 ⟨80 * (t.val / 80), h⟩) (ms0_1 ⟨80 * (t.val / 80), h⟩) (hs0_1 ⟨80 * (t.val / 80), h⟩) (ms0_2 ⟨80 * (t.val / 80), h⟩) (hs0_2 ⟨80 * (t.val / 80), h⟩) (ms0_3 ⟨80 * (t.val / 80), h⟩) (hs0_3 ⟨80 * (t.val / 80), h⟩) (ms0_4 ⟨80 * (t.val / 80), h⟩) (hs0_4 ⟨80 * (t.val / 80), h⟩) (ms0_5 ⟨80 * (t.val / 80), h⟩) (hs0_5 ⟨80 * (t.val / 80), h⟩) (ms0_6 ⟨80 * (t.val / 80), h⟩) (hs0_6 ⟨80 * (t.val / 80), h⟩) (ms0_7 ⟨80 * (t.val / 80), h⟩) (hs0_7 ⟨80 * (t.val / 80), h⟩) (ms0_8 ⟨80 * (t.val / 80), h⟩) (hs0_8 ⟨80 * (t.val / 80), h⟩) (ms0_9 ⟨80 * (t.val / 80), h⟩) (hs0_9 ⟨80 * (t.val / 80), h⟩) scM0_0 (Memref.isWhole_whole _) scM0_1 (Memref.isWhole_whole _) ((hcond0_0 ⟨80 * (t.val / 80), h⟩).mpr h0) (fun hh => h1 ((hcond0_1 ⟨80 * (t.val / 80), h⟩).mp hh)) (iblk m c 0 ⟨80 * (t.val / 80), h⟩) (iblk m c 1 ⟨80 * (t.val / 80), h⟩) (iblk m c 2 ⟨80 * (t.val / 80), h⟩) (iblk m c 3 ⟨80 * (t.val / 80), h⟩) (iblk m c 4 ⟨80 * (t.val / 80), h⟩) (iblk m c 5 ⟨80 * (t.val / 80), h⟩) (iblk m c 6 ⟨80 * (t.val / 80), h⟩) (iblk m c 7 ⟨80 * (t.val / 80), h⟩) (iblk m c 8 ⟨80 * (t.val / 80), h⟩)) (ix2 p j)).trans ?_
    refine (Pay.update_black (iblk m c 2 ⟨80 * (t.val / 80), h⟩) (iblk m c 1 ⟨80 * (t.val / 80), h⟩) (k0_pay2 (F := Ideal)) p j).trans ?_
    rw [Pay.cleared_black]
    show (0 : EReal) + _ = 0 + tileB m c _ p j
    unfold tileB
    rw [dif_pos h]
    rfl
  · intro n h acc i hlo hhi
    obtain ⟨p, j, rfl⟩ : ∃ (p : Fin 1024) (j : Fin 4), i = ix2 p j := ⟨i 0, i 1, eq_ix2 i⟩
    have h0 : ¬n % 80 = 0 := by omega
    have e : tileB m c n p j = tile (iblk m c 1 ⟨n, h⟩) (iblk m c 2 ⟨n, h⟩) p j := by
      unfold tileB; rw [dif_pos h]
    show _ = acc (ix2 p j) + tileB m c n p j
    rw [e]
    unfold Value.scAt0_1
    rw [dif_neg h0]
    by_cases h1 : n % 80 = 79
    · rw [dif_pos h1]
      refine (congrFun (Pieces.black_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) (iblk m c 8 ⟨n, h⟩) (outsAt0 m c ((⟨n, h⟩ : Fin cfg0.N).val - 1) (Nat.lt_of_le_of_lt (Nat.sub_le _ _) (⟨n, h⟩ : Fin cfg0.N).isLt)).2.1 acc) (ix2 p j)).trans ?_
      exact Pay.update_black (iblk m c 2 ⟨n, h⟩) (iblk m c 1 ⟨n, h⟩) acc p j
    · rw [dif_neg h1]
      refine (congrFun (Pieces.black_middle (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) scM0_0 (Memref.isWhole_whole _) scM0_1 (Memref.isWhole_whole _) (fun hh => h0 ((hcond0_0 ⟨n, h⟩).mp hh)) (fun hh => h1 ((hcond0_1 ⟨n, h⟩).mp hh)) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) (iblk m c 8 ⟨n, h⟩) (outsAt0 m c ((⟨n, h⟩ : Fin cfg0.N).val - 1) (Nat.lt_of_le_of_lt (Nat.sub_le _ _) (⟨n, h⟩ : Fin cfg0.N).isLt)).2.1 acc) (ix2 p j)).trans ?_
      exact Pay.update_black (iblk m c 2 ⟨n, h⟩) (iblk m c 1 ⟨n, h⟩) acc p j

/-- At the last point of a batch tile the body updates the black accumulator first and feeds the UPDATED accumulator to the
    small layers; that updated value is what the accumulator holds after the point. -/
theorem black_updated (c : Dev nD) (t : Fin cfg0.N) (h0 : ¬t.val % 80 = 0) (h1 : t.val % 80 = 79) :
    (outsAt0 m c t.val t.isLt).2.2
      = k0_pay5 (F := Ideal) (iblk m c 2 t) (iblk m c 1 t) (outsAt0 m c (t.val - 1) (Nat.lt_of_le_of_lt (Nat.sub_le _ _) t.isLt)).2.2 := by
  have e := congrArg (fun z => z.2.2) (outsAt0_C m c t h0 h1)
  dsimp only at e
  rw [e]
  exact Pieces.black_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Acc

end
-- ==== Proof.KBlocks.lean ====
/-
  The blocks the kernel body is given at a grid point, as entries of the arrays.

  The grid has 2 × 80 points; point `t` is batch tile `t / 80` and feature tile `t % 80`. There the two feature
  windows hold rows `1024·(t/80) + p` and columns `1024·(t%80) + q` of the white and black features, the weight
  window holds all four rows and the same 1024 columns of the first layer's weights, the side-to-move window holds
  the batch tile's 1024 rows, and the five small windows hold their whole arrays. Three of those small arrays are
  the biases given a leading axis of length one before the call; read at (0, j) they are the bias at j.
-/
import proofs.«105220_j17549236372205_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The block index of every window at every grid point, in closed form. -/
theorem idx_facts : ∀ t : Fin cfg0.N,
    win0_0.index t (0 : Fin 2) = t.val / 80 ∧ win0_0.index t (1 : Fin 2) = t.val % 80
    ∧ win0_1.index t (0 : Fin 2) = t.val / 80 ∧ win0_1.index t (1 : Fin 2) = t.val % 80
    ∧ win0_2.index t (0 : Fin 2) = 0 ∧ win0_2.index t (1 : Fin 2) = t.val % 80
    ∧ win0_3.index t (0 : Fin 2) = t.val / 80 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val / 80 ∧ win0_9.index t (1 : Fin 2) = 0 :=
  (by decide +kernel : ∀ t : Fin grid0.N, _)

/-- The white features' block at point `t`. -/
theorem white_block (c : Dev nD) (t : Fin cfg0.N) (p : Fin 1024) (q : Fin 1024)
    (h0 : 1024 * (t.val / 80) + p.val < 2048) (h1 : 1024 * (t.val % 80) + q.val < 81920) :
    (iblk m c 0 t : Vec F S1024x1024 .f32) (ix2 p q)
      = V m c main_arg0 (ix2 (⟨1024 * (t.val / 80) + p.val, h0⟩ : Fin 2048) (⟨1024 * (t.val % 80) + q.val, h1⟩ : Fin 81920)) := by
  obtain ⟨w00, w01, w10, w11, w20, w21, w30, w31, w40, w41, w50, w51, w60, w61, w70, w71, w80, w81, w90, w91⟩ := idx_facts t
  unfold iblk
  rw [View.read_apply]
  show V m c main_arg0 _ = V m c main_arg0 _
  refine congrArg _ ?_
  funext a
  apply Fin.ext
  match a with
  | ⟨0, _⟩ => show win0_0.index t (0 : Fin 2) * 1024 + 1 * p.val = 1024 * (t.val / 80) + p.val; rw [w00]; omega
  | ⟨1, _⟩ => show win0_0.index t (1 : Fin 2) * 1024 + 1 * q.val = 1024 * (t.val % 80) + q.val; rw [w01]; omega

/-- The black features' block at point `t`. -/
theorem black_block (c : Dev nD) (t : Fin cfg0.N) (p : Fin 1024) (q : Fin 1024)
    (h0 : 1024 * (t.val / 80) + p.val < 2048) (h1 : 1024 * (t.val % 80) + q.val < 81920) :
    (iblk m c 1 t : Vec F S1024x1024 .f32) (ix2 p q)
      = V m c main_arg1 (ix2 (⟨1024 * (t.val / 80) + p.val, h0⟩ : Fin 2048) (⟨1024 * (t.val % 80) + q.val, h1⟩ : Fin 81920)) := by
  obtain ⟨w00, w01, w10, w11, w20, w21, w30, w31, w40, w41, w50, w51, w60, w61, w70, w71, w80, w81, w90, w91⟩ := idx_facts t
  unfold iblk
  rw [View.read_apply]
  show V m c main_arg1 _ = V m c main_arg1 _
  refine congrArg _ ?_
  funext a
  apply Fin.ext
  match a with
  | ⟨0, _⟩ => show win0_1.index t (0 : Fin 2) * 1024 + 1 * p.val = 1024 * (t.val / 80) + p.val; rw [w10]; omega
  | ⟨1, _⟩ => show win0_1.index t (1 : Fin 2) * 1024 + 1 * q.val = 1024 * (t.val % 80) + q.val; rw [w11]; omega

/-- The first layer's weight block at point `t`: all four rows, the feature tile's columns. -/
theorem weight_block (c : Dev nD) (t : Fin cfg0.N) (p : Fin 4) (q : Fin 1024)
    (h0 : p.val < 4) (h1 : 1024 * (t.val % 80) + q.val < 81920) :
    (iblk m c 2 t : Vec F S4x1024 .f32) (ix2 p q)
      = V m c main_arg5 (ix2 (⟨p.val, h0⟩ : Fin 4) (⟨1024 * (t.val % 80) + q.val, h1⟩ : Fin 81920)) := by
  obtain ⟨w00, w01, w10, w11, w20, w21, w30, w31, w40, w41, w50, w51, w60, w61, w70, w71, w80, w81, w90, w91⟩ := idx_facts t
  unfold iblk
  rw [View.read_apply]
  show V m c main_arg5 _ = V m c main_arg5 _
  refine congrArg _ ?_
  funext a
  apply Fin.ext
  match a with
  | ⟨0, _⟩ => show win0_2.index t (0 : Fin 2) * 4 + 1 * p.val = p.val; rw [w20]; omega
  | ⟨1, _⟩ => show win0_2.index t (1 : Fin 2) * 1024 + 1 * q.val = 1024 * (t.val % 80) + q.val; rw [w21]; omega

/-- The side-to-move block at point `t`: the batch tile's rows. -/
theorem turn_block (c : Dev nD) (t : Fin cfg0.N) (p : Fin 1024) (q : Fin 1)
    (h0 : 1024 * (t.val / 80) + p.val < 2048) (h1 : q.val < 1) :
    (iblk m c 3 t : Vec F S1024x1 .i32) (ix2 p q)
      = V m c main_arg2 (ix2 (⟨1024 * (t.val / 80) + p.val, h0⟩ : Fin 2048) (⟨q.val, h1⟩ : Fin 1)) := by
  obtain ⟨w00, w01, w10, w11, w20, w21, w30, w31, w40, w41, w50, w51, w60, w61, w70, w71, w80, w81, w90, w91⟩ := idx_facts t
  unfold iblk
  rw [View.read_apply]
  show V m c main_arg2 _ = V m c main_arg2 _
  refine congrArg _ ?_
  funext a
  apply Fin.ext
  match a with
  | ⟨0, _⟩ => show win0_3.index t (0 : Fin 2) * 1024 + 1 * p.val = 1024 * (t.val / 80) + p.val; rw [w30]; omega
  | ⟨1, _⟩ => show win0_3.index t (1 : Fin 2) * 1 + 1 * q.val = q.val; rw [w31]; omega

/-- The first bias (with its leading unit axis) is held whole. -/
theorem bias0_block (c : Dev nD) (t : Fin cfg0.N) (p : Fin 1) (q : Fin 4)
    (h0 : p.val < 1) (h1 : q.val < 4) :
    (iblk m c 4 t : Vec F S1x4 .f32) (ix2 p q)
      = V m c main_v0 (ix2 (⟨p.val, h0⟩ : Fin 1) (⟨q.val, h1⟩ : Fin 4)) := by
  obtain ⟨w00, w01, w10, w11, w20, w21, w30, w31, w40, w41, w50, w51, w60, w61, w70, w71, w80, w81, w90, w91⟩ := idx_facts t
  unfold iblk
  rw [View.read_apply]
  show V m c main_v0 _ = V m c main_v0 _
  refine congrArg _ ?_
  funext a
  apply Fin.ext
  match a with
  | ⟨0, _⟩ => show win0_4.index t (0 : Fin 2) * 1 + 1 * p.val = p.val; rw [w40]; omega
  | ⟨1, _⟩ => show win0_4.index t (1 : Fin 2) * 4 + 1 * q.val = q.val; rw [w41]; omega

/-- The second layer's weights are held whole. -/
theorem weight1_block (c : Dev nD) (t : Fin cfg0.N) (p : Fin 8) (q : Fin 8)
    (h0 : p.val < 8) (h1 : q.val < 8) :
    (iblk m c 5 t : Vec F S8x8 .f32) (ix2 p q)
      = V m c main_arg7 (ix2 (⟨p.val, h0⟩ : Fin 8) (⟨q.val, h1⟩ : Fin 8)) := by
  obtain ⟨w00, w01, w10, w11, w20, w21, w30, w31, w40, w41, w50, w51, w60, w61, w70, w71, w80, w81, w90, w91⟩ := idx_facts t
  unfold iblk
  rw [View.read_apply]
  show V m c main_arg7 _ = V m c main_arg7 _
  refine congrArg _ ?_
  funext a
  apply Fin.ext
  match a with
  | ⟨0, _⟩ => show win0_5.index t (0 : Fin 2) * 8 + 1 * p.val = p.val; rw [w50]; omega
  | ⟨1, _⟩ => show win0_5.index t (1 : Fin 2) * 8 + 1 * q.val = q.val; rw [w51]; omega

/-- The second bias (with its leading unit axis) is held whole. -/
theorem bias1_block (c : Dev nD) (t : Fin cfg0.N) (p : Fin 1) (q : Fin 8)
    (h0 : p.val < 1) (h1 : q.val < 8) :
    (iblk m c 6 t : Vec F S1x8 .f32) (ix2 p q)
      = V m c main_v1 (ix2 (⟨p.val, h0⟩ : Fin 1) (⟨q.val, h1⟩ : Fin 8)) := by
  obtain ⟨w00, w01, w10, w11, w20, w21, w30, w31, w40, w41, w50, w51, w60, w61, w70, w71, w80, w81, w90, w91⟩ := idx_facts t
  unfold iblk
  rw [View.read_apply]
  show V m c main_v1 _ = V m c main_v1 _
  refine congrArg _ ?_
  funext a
  apply Fin.ext
  match a with
  | ⟨0, _⟩ => show win0_6.index t (0 : Fin 2) * 1 + 1 * p.val = p.val; rw [w60]; omega
  | ⟨1, _⟩ => show win0_6.index t (1 : Fin 2) * 8 + 1 * q.val = q.val; rw [w61]; omega

/-- The third layer's weights are held whole. -/
theorem weight2_block (c : Dev nD) (t : Fin cfg0.N) (p : Fin 1) (q : Fin 8)
    (h0 : p.val < 1) (h1 : q.val < 8) :
    (iblk m c 7 t : Vec F S1x8 .f32) (ix2 p q)
      = V m c main_arg9 (ix2 (⟨p.val, h0⟩ : Fin 1) (⟨q.val, h1⟩ : Fin 8)) := by
  obtain ⟨w00, w01, w10, w11, w20, w21, w30, w31, w40, w41, w50, w51, w60, w61, w70, w71, w80, w81, w90, w91⟩ := idx_facts t
  unfold iblk
  rw [View.read_apply]
  show V m c main_arg9 _ = V m c main_arg9 _
  refine congrArg _ ?_
  funext a
  apply Fin.ext
  match a with
  | ⟨0, _⟩ => show win0_7.index t (0 : Fin 2) * 1 + 1 * p.val = p.val; rw [w70]; omega
  | ⟨1, _⟩ => show win0_7.index t (1 : Fin 2) * 8 + 1 * q.val = q.val; rw [w71]; omega

/-- The third bias (with its leading unit axis) is held whole. -/
theorem bias2_block (c : Dev nD) (t : Fin cfg0.N) (p : Fin 1) (q : Fin 1)
    (h0 : p.val < 1) (h1 : q.val < 1) :
    (iblk m c 8 t : Vec F S1x1 .f32) (ix2 p q)
      = V m c main_v2 (ix2 (⟨p.val, h0⟩ : Fin 1) (⟨q.val, h1⟩ : Fin 1)) := by
  obtain ⟨w00, w01, w10, w11, w20, w21, w30, w31, w40, w41, w50, w51, w60, w61, w70, w71, w80, w81, w90, w91⟩ := idx_facts t
  unfold iblk
  rw [View.read_apply]
  show V m c main_v2 _ = V m c main_v2 _
  refine congrArg _ ?_
  funext a
  apply Fin.ext
  match a with
  | ⟨0, _⟩ => show win0_8.index t (0 : Fin 2) * 1 + 1 * p.val = p.val; rw [w80]; omega
  | ⟨1, _⟩ => show win0_8.index t (1 : Fin 2) * 1 + 1 * q.val = q.val; rw [w81]; omega

/-- The white features' block at a point given by its batch tile `i` and feature tile `s`. -/
theorem white_block_at (c : Dev nD) (t : Fin cfg0.N) (i s : ℕ) (hi : t.val / 80 = i) (hs : t.val % 80 = s) (p q : Fin 1024)
    (h0 : 1024 * i + p.val < 2048) (h1 : 1024 * s + q.val < 81920) :
    (iblk m c 0 t : Vec F S1024x1024 .f32) (ix2 p q)
      = V m c main_arg0 (ix2 (⟨1024 * i + p.val, h0⟩ : Fin 2048) (⟨1024 * s + q.val, h1⟩ : Fin 81920)) := by
  subst hi hs; exact white_block m c t p q h0 h1

/-- The black features' block at a point given by its batch tile `i` and feature tile `s`. -/
theorem black_block_at (c : Dev nD) (t : Fin cfg0.N) (i s : ℕ) (hi : t.val / 80 = i) (hs : t.val % 80 = s) (p q : Fin 1024)
    (h0 : 1024 * i + p.val < 2048) (h1 : 1024 * s + q.val < 81920) :
    (iblk m c 1 t : Vec F S1024x1024 .f32) (ix2 p q)
      = V m c main_arg1 (ix2 (⟨1024 * i + p.val, h0⟩ : Fin 2048) (⟨1024 * s + q.val, h1⟩ : Fin 81920)) := by
  subst hi hs; exact black_block m c t p q h0 h1

/-- The weight block at a point given by its feature tile `s`. -/
theorem weight_block_at (c : Dev nD) (t : Fin cfg0.N) (s : ℕ) (hs : t.val % 80 = s) (j : Fin 4) (q : Fin 1024)
    (h1 : 1024 * s + q.val < 81920) :
    (iblk m c 2 t : Vec F S4x1024 .f32) (ix2 j q)
      = V m c main_arg5 (ix2 j (⟨1024 * s + q.val, h1⟩ : Fin 81920)) := by
  subst hs; exact weight_block m c t j q j.isLt h1

/-- The first bias as the region finds it: the four-vector given a leading unit axis, so (u, j) reads the bias at j. -/
theorem bias0_entry (c : Dev nD) (u : Fin 1) (j : Fin 4) :
    V m c main_v0 (ix2 u j) = m ((c : Thread nD τ).loc main_arg6) (ix1 j) := by
  have e : (V m c main_v0 : S1x4.Idx → Elt F .f32) = shapeCast S1x4 (m ((c : Thread nD τ).loc main_arg6)) shapeCasts_S4_S1x4 := by
    dsimp only [Gen.V, Gen.hostOps0]; after_results; rfl
  rw [e]
  exact shapeCast_a_1a_apply _ _ u j

/-- The second bias as the region finds it. -/
theorem bias1_entry (c : Dev nD) (u : Fin 1) (j : Fin 8) :
    V m c main_v1 (ix2 u j) = m ((c : Thread nD τ).loc main_arg8) (ix1 j) := by
  have e : (V m c main_v1 : S1x8.Idx → Elt F .f32) = shapeCast S1x8 (m ((c : Thread nD τ).loc main_arg8)) shapeCasts_S8_S1x8 := by
    dsimp only [Gen.V, Gen.hostOps0]; after_results; rfl
  rw [e]
  exact shapeCast_a_1a_apply _ _ u j

/-- The third bias as the region finds it. -/
theorem bias2_entry (c : Dev nD) (u : Fin 1) (j : Fin 1) :
    V m c main_v2 (ix2 u j) = m ((c : Thread nD τ).loc main_arg10) (ix1 j) := by
  have e : (V m c main_v2 : S1x1.Idx → Elt F .f32) = shapeCast S1x1 (m ((c : Thread nD τ).loc main_arg10)) shapeCasts_S1_S1x1 := by
    dsimp only [Gen.V, Gen.hostOps0]; after_results; rfl
  rw [e]
  exact shapeCast_a_1a_apply _ _ u j

end Cert.KernelIdeal.Blocks

end
-- ==== Proof.Algebra.lean ====
/-
  A long sum cut into tiles.

  A sum over `a · b` consecutive naturals is the sum, over the `a` tiles of `b` consecutive naturals, of the
  tiles' sums. Only commutativity and associativity of the addition are used, so the statement holds in any
  commutative additive monoid — in particular on the extended reals, infinities included.
-/
import Idealize.ShloMosaic.PureOps.Ideal

namespace Cert.Algebra

open Finset

/-- `Σ_{k < a·b} F k = Σ_{s < a} Σ_{q < b} F (b·s + q)`. -/
theorem sum_range_tiles {M : Type*} [AddCommMonoid M] (F : ℕ → M) (b : ℕ) :
    ∀ a : ℕ, ∑ k ∈ range (a * b), F k = ∑ s ∈ range a, ∑ q ∈ range b, F (b * s + q)
  | 0 => by simp
  | a + 1 => by
    rw [Nat.succ_mul, sum_range_add, sum_range_tiles F b a, sum_range_succ, Nat.mul_comm a b]

/-- The same with the long sum and each tile's sum indexed by `Fin`. -/
theorem sum_fin_tiles {M : Type*} [AddCommMonoid M] (F : ℕ → M) (a b : ℕ) :
    ∑ k : Fin (a * b), F k.val = ∑ s ∈ range a, ∑ q : Fin b, F (b * s + q.val) := by
  rw [Fin.sum_univ_eq_sum_range (fun k => F k) (a * b), sum_range_tiles]
  exact sum_congr rfl fun s _ => (Fin.sum_univ_eq_sum_range (fun q => F (b * s + q)) b).symm

/-- The 81920 features as 80 tiles of 1024. -/
theorem sum_features {M : Type*} [AddCommMonoid M] (F : ℕ → M) :
    ∑ k : Fin 81920, F k.val = ∑ s ∈ range 80, ∑ q : Fin 1024, F (1024 * s + q.val) :=
  sum_fin_tiles F 80 1024

end Cert.Algebra
-- ==== Proof.Result.lean ====
/-
  The result of both programs as one function of the nine argument arrays that matter.

  Row `r` of the result is `Spec.rowOut` of: the row's side to move read as a number; the row's white and black
  accumulators, each the sum over all 81920 features of the row's feature times the column's weight, plus the first
  bias; and the two small layers' weights and biases. The two score arrays do not enter.
-/
import proofs.«105220_j17549236372205_1_alg».proof.Proof.Spec

noncomputable section

namespace Cert.Result

open Idealize.ShloMosaic Idealize.ShloMosaic.ValueIdx

/-- Row `r` of the result. -/
def row (white black : (⟨2, ![2048, 81920]⟩ : Shape).Idx → EReal) (turn : (⟨2, ![2048, 1]⟩ : Shape).Idx → BitVec 32)
    (W0 : (⟨2, ![4, 81920]⟩ : Shape).Idx → EReal) (b0 : (⟨1, ![4]⟩ : Shape).Idx → EReal)
    (W1 : (⟨2, ![8, 8]⟩ : Shape).Idx → EReal) (b1 : (⟨1, ![8]⟩ : Shape).Idx → EReal)
    (W2 : (⟨2, ![1, 8]⟩ : Shape).Idx → EReal) (b2 : (⟨1, ![1]⟩ : Shape).Idx → EReal) (r : Fin 2048) : EReal :=
  Cert.Spec.rowOut (FloatOps.sitofp (F := Ideal) .f32 (turn (ix2 r (0 : Fin 1))))
    (fun j => (∑ k : Fin 81920, white (ix2 r k) * W0 (ix2 j k)) + b0 (ix1 j))
    (fun j => (∑ k : Fin 81920, black (ix2 r k) * W0 (ix2 j k)) + b0 (ix1 j))
    (fun n k => W1 (ix2 n k)) (fun n => b1 (ix1 n)) (fun n => W2 (ix2 (0 : Fin 1) n)) (b2 (ix1 (0 : Fin 1)))

end Cert.Result

end
-- ==== Proof.KFinal.lean ====
/-
  The kernel's result array.

  Only the last grid point of each batch tile writes its output block back, and the two batch tiles' blocks are the two
  halves of the result's 2048 rows. At such a point both accumulators have seen all eighty feature tiles, so each holds
  the full sum over the 81920 features; the two small layers applied to them give, at row `p` of the block, row
  `1024 · (batch tile) + p` of `Cert.Result.row`. Hence the array after the run is `Cert.Result.row` of the arguments.
-/
import proofs.«105220_j17549236372205_1_alg».proof.Proof.Gen.KernelIdeal.Value
import proofs.«105220_j17549236372205_1_alg».proof.Proof.KPieces
import proofs.«105220_j17549236372205_1_alg».proof.Proof.KPay
import proofs.«105220_j17549236372205_1_alg».proof.Proof.KAcc
import proofs.«105220_j17549236372205_1_alg».proof.Proof.KBlocks
import proofs.«105220_j17549236372205_1_alg».proof.Proof.Algebra
import proofs.«105220_j17549236372205_1_alg».proof.Proof.Result
import Idealize.ShloMosaic.Lib.Pipeline.Value
import Idealize.ShloMosaic.Lib.ValueIdx

noncomputable section

namespace Cert.KernelIdeal.Final

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- A congruence for `Spec.rowOut`: equal ingredients, entry by entry, give equal outputs. -/
theorem rowOut_congr {t t' : EReal} {w w' b b' : Fin 4 → EReal} {W1 W1' : Fin 8 → Fin 8 → EReal} {b1 b1' W2 W2' : Fin 8 → EReal}
    {b2 b2' : EReal} (ht : t = t') (hw : ∀ j, w j = w' j) (hb : ∀ j, b j = b' j) (hW1 : ∀ n k, W1 n k = W1' n k)
    (hb1 : ∀ n, b1 n = b1' n) (hW2 : ∀ n, W2 n = W2' n) (hb2 : b2 = b2') :
    Cert.Spec.rowOut t w b W1 b1 W2 b2 = Cert.Spec.rowOut t' w' b' W1' b1' W2' b2' := by
  obtain rfl := ht
  obtain rfl := hb2
  obtain rfl : w = w' := funext hw
  obtain rfl : b = b' := funext hb
  obtain rfl : W1 = W1' := funext fun n => funext (hW1 n)
  obtain rfl : b1 = b1' := funext hb1
  obtain rfl : W2 = W2' := funext hW2
  rfl

/-- The argument arrays the result depends on, as the region's core `c` is launched with them. -/
abbrev argWhite (c : Dev nD) : (⟨2, ![2048, 81920]⟩ : Shape).Idx → EReal := m ((c : Thread nD τ).loc main_arg0)
abbrev argBlack (c : Dev nD) : (⟨2, ![2048, 81920]⟩ : Shape).Idx → EReal := m ((c : Thread nD τ).loc main_arg1)
abbrev argTurn (c : Dev nD) : (⟨2, ![2048, 1]⟩ : Shape).Idx → BitVec 32 := m ((c : Thread nD τ).loc main_arg2)
abbrev argW0 (c : Dev nD) : (⟨2, ![4, 81920]⟩ : Shape).Idx → EReal := m ((c : Thread nD τ).loc main_arg5)
abbrev argB0 (c : Dev nD) : (⟨1, ![4]⟩ : Shape).Idx → EReal := m ((c : Thread nD τ).loc main_arg6)
abbrev argW1 (c : Dev nD) : (⟨2, ![8, 8]⟩ : Shape).Idx → EReal := m ((c : Thread nD τ).loc main_arg7)
abbrev argB1 (c : Dev nD) : (⟨1, ![8]⟩ : Shape).Idx → EReal := m ((c : Thread nD τ).loc main_arg8)
abbrev argW2 (c : Dev nD) : (⟨2, ![1, 8]⟩ : Shape).Idx → EReal := m ((c : Thread nD τ).loc main_arg9)
abbrev argB2 (c : Dev nD) : (⟨1, ![1]⟩ : Shape).Idx → EReal := m ((c : Thread nD τ).loc main_arg10)

/-- The white accumulator at the end of a batch tile: the sum over ALL 81920 features of the row's feature times the column's
    weight — the eighty feature tiles' partial sums are the long sum cut into tiles. -/
theorem white_total (c : Dev nD) (t : Fin cfg0.N) (h1 : t.val % 80 = 79) (p : Fin 1024) (j : Fin 4)
    (hr : 1024 * (t.val / 80) + p.val < 2048) :
    (outsAt0 m c t.val t.isLt).2.1 (ix2 p j)
      = ∑ k : Fin 81920, argWhite m c (ix2 (⟨1024 * (t.val / 80) + p.val, hr⟩ : Fin 2048) k) * argW0 m c (ix2 j k) := by
  have hN : cfg0.N = 160 := N_0
  have ht : t.val < 160 := lt_of_lt_of_eq t.isLt hN
  rw [Acc.white_after m c t p j, h1, zero_add]
  have eF : (∑ k : Fin 81920, argWhite m c (ix2 (⟨1024 * (t.val / 80) + p.val, hr⟩ : Fin 2048) k) * argW0 m c (ix2 j k))
      = ∑ k : Fin 81920, (fun n : ℕ => if h : n < 81920 then
          argWhite m c (ix2 (⟨1024 * (t.val / 80) + p.val, hr⟩ : Fin 2048) (⟨n, h⟩ : Fin 81920))
            * argW0 m c (ix2 j (⟨n, h⟩ : Fin 81920)) else 0) k.val :=
    Finset.sum_congr rfl fun k _ => by
      show _ = dite _ _ _
      rw [dif_pos k.isLt]
  refine Eq.trans ?_ (eF.trans (Algebra.sum_features (fun n : ℕ => if h : n < 81920 then
          argWhite m c (ix2 (⟨1024 * (t.val / 80) + p.val, hr⟩ : Fin 2048) (⟨n, h⟩ : Fin 81920))
            * argW0 m c (ix2 j (⟨n, h⟩ : Fin 81920)) else 0))).symm
  refine Finset.sum_congr rfl fun s hs => ?_
  have hs' : s < 80 := Finset.mem_range.mp hs
  have hn : 80 * (t.val / 80) + s < cfg0.N := lt_of_lt_of_eq (by omega : 80 * (t.val / 80) + s < 160) hN.symm
  unfold Acc.tileW
  rw [dif_pos hn]
  unfold Acc.tile
  refine Finset.sum_congr rfl fun q _ => ?_
  have hk : 1024 * s + q.val < 81920 := by have := q.isLt; omega
  show _ = dite _ _ _
  rw [dif_pos hk]
  rw [Blocks.white_block_at m c ⟨80 * (t.val / 80) + s, hn⟩ (t.val / 80) s (by show (80 * (t.val / 80) + s) / 80 = t.val / 80; omega)
      (by show (80 * (t.val / 80) + s) % 80 = s; omega) p q hr hk,
    Blocks.weight_block_at m c ⟨80 * (t.val / 80) + s, hn⟩ s (by show (80 * (t.val / 80) + s) % 80 = s; omega) j q hk,
    V_main_arg0, V_main_arg5]

/-- The black accumulator at the end of a batch tile: the sum over ALL 81920 features of the row's feature times the column's
    weight — the eighty feature tiles' partial sums are the long sum cut into tiles. -/
theorem black_total (c : Dev nD) (t : Fin cfg0.N) (h1 : t.val % 80 = 79) (p : Fin 1024) (j : Fin 4)
    (hr : 1024 * (t.val / 80) + p.val < 2048) :
    (outsAt0 m c t.val t.isLt).2.2 (ix2 p j)
      = ∑ k : Fin 81920, argBlack m c (ix2 (⟨1024 * (t.val / 80) + p.val, hr⟩ : Fin 2048) k) * argW0 m c (ix2 j k) := by
  have hN : cfg0.N = 160 := N_0
  have ht : t.val < 160 := lt_of_lt_of_eq t.isLt hN
  rw [Acc.black_after m c t p j, h1, zero_add]
  have eF : (∑ k : Fin 81920, argBlack m c (ix2 (⟨1024 * (t.val / 80) + p.val, hr⟩ : Fin 2048) k) * argW0 m c (ix2 j k))
      = ∑ k : Fin 81920, (fun n : ℕ => if h : n < 81920 then
          argBlack m c (ix2 (⟨1024 * (t.val / 80) + p.val, hr⟩ : Fin 2048) (⟨n, h⟩ : Fin 81920))
            * argW0 m c (ix2 j (⟨n, h⟩ : Fin 81920)) else 0) k.val :=
    Finset.sum_congr rfl fun k _ => by
      show _ = dite _ _ _
      rw [dif_pos k.isLt]
  refine Eq.trans ?_ (eF.trans (Algebra.sum_features (fun n : ℕ => if h : n < 81920 then
          argBlack m c (ix2 (⟨1024 * (t.val / 80) + p.val, hr⟩ : Fin 2048) (⟨n, h⟩ : Fin 81920))
            * argW0 m c (ix2 j (⟨n, h⟩ : Fin 81920)) else 0))).symm
  refine Finset.sum_congr rfl fun s hs => ?_
  have hs' : s < 80 := Finset.mem_range.mp hs
  have hn : 80 * (t.val / 80) + s < cfg0.N := lt_of_lt_of_eq (by omega : 80 * (t.val / 80) + s < 160) hN.symm
  unfold Acc.tileB
  rw [dif_pos hn]
  unfold Acc.tile
  refine Finset.sum_congr rfl fun q _ => ?_
  have hk : 1024 * s + q.val < 81920 := by have := q.isLt; omega
  show _ = dite _ _ _
  rw [dif_pos hk]
  rw [Blocks.black_block_at m c ⟨80 * (t.val / 80) + s, hn⟩ (t.val / 80) s (by show (80 * (t.val / 80) + s) / 80 = t.val / 80; omega)
      (by show (80 * (t.val / 80) + s) % 80 = s; omega) p q hr hk,
    Blocks.weight_block_at m c ⟨80 * (t.val / 80) + s, hn⟩ s (by show (80 * (t.val / 80) + s) % 80 = s; omega) j q hk,
    V_main_arg1, V_main_arg5]

/-- The result array: row `r` is `Cert.Result.row` of the argument arrays at `r`. -/
def result (c : Dev nD) : Buf (Elt Ideal) ((c : Thread nD τ).loc main_v3) := fun i =>
  Cert.Result.row (argWhite m c) (argBlack m c) (argTurn m c) (argW0 m c) (argB0 m c) (argW1 m c) (argB1 m c) (argW2 m c)
    (argB2 m c) (i 0)

/-- What a batch tile's last point writes back is that batch tile's 1024 rows of the result. -/
theorem flushed_eq (c : Dev nD) (t : Fin cfg0.N) (hf : (cfg0.win 9).flush t = true) :
    (dats m 0 c).flushed 9 t = ((cfg0.win 9).blk t).view.read (Elt Ideal) (result m c) := by
  have hN : cfg0.N = 160 := N_0
  have ht : t.val < 160 := lt_of_lt_of_eq t.isLt hN
  have h1 : t.val % 80 = 79 := (flush0_9 t).mp hf
  have h0 : ¬t.val % 80 = 0 := by omega
  obtain ⟨-, -, -, -, -, -, -, -, -, -, -, -, -, -, -, -, -, -, w90, w91⟩ := Blocks.idx_facts t
  rw [Value.flushed9_C m c t h0 h1]
  funext y
  obtain ⟨p, u, rfl⟩ : ∃ (p : Fin 1024) (u : Fin 1), y = ix2 p u := ⟨y 0, y 1, eq_ix2 y⟩
  obtain rfl : u = 0 := Subsingleton.elim _ _
  rw [View.read_apply]
  have hr : 1024 * (t.val / 80) + p.val < 2048 := by omega
  have eidx : ((cfg0.win 9).blk t).view.emb (ix2 p (0 : Fin 1)) = ix2 (⟨1024 * (t.val / 80) + p.val, hr⟩ : Fin 2048) (0 : Fin 1) := by
    funext a; apply Fin.ext
    match a with
    | ⟨0, _⟩ => show win0_9.index t (0 : Fin 2) * 1024 + 1 * p.val = 1024 * (t.val / 80) + p.val; rw [w90]; omega
    | ⟨1, _⟩ => show win0_9.index t (1 : Fin 2) * 1 + 1 * 0 = 0; rw [w91]
  rw [eidx]
  show out0_C_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2 (ix2 p (0 : Fin 1))
    = result m c (ix2 (⟨1024 * (t.val / 80) + p.val, hr⟩ : Fin 2048) (0 : Fin 1))
  refine (congrFun (Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun hh => h0 ((hcond0_0 t).mp hh)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1))).trans ?_
  rw [← Acc.white_updated m c t h0 h1, ← Acc.black_updated m c t h0 h1]
  refine (Pay.layers (outsAt0 m c t.val t.isLt).2.1 (outsAt0 m c t.val t.isLt).2.2 (iblk m c 3 t) (iblk m c 4 t) (iblk m c 5 t)
    (iblk m c 6 t) (iblk m c 7 t) (iblk m c 8 t) p).trans ?_
  show Cert.Spec.rowOut _ _ _ _ _ _ _ = Cert.Spec.rowOut _ _ _ _ _ _ _
  refine rowOut_congr ?_ (fun j => ?_) (fun j => ?_) (fun n k => ?_) (fun n => ?_) (fun n => ?_) ?_
  · exact congrArg _ ((Blocks.turn_block m c t p 0 hr (by decide)).trans (congrFun (V_main_arg2 m c) _))
  · rw [white_total m c t h1 p j hr, Blocks.bias0_block m c t 0 j (by decide) j.isLt, Blocks.bias0_entry]
    rfl
  · rw [black_total m c t h1 p j hr, Blocks.bias0_block m c t 0 j (by decide) j.isLt, Blocks.bias0_entry]
    rfl
  · exact (Blocks.weight1_block m c t n k n.isLt k.isLt).trans (congrFun (V_main_arg7 m c) _)
  · rw [Blocks.bias1_block m c t 0 n (by decide) n.isLt, Blocks.bias1_entry]
  · exact (Blocks.weight2_block m c t 0 n (by decide) n.isLt).trans (congrFun (V_main_arg9 m c) _)
  · rw [Blocks.bias2_block m c t 0 0 (by decide) (by decide), Blocks.bias2_entry]

/-- A row of the result lies in a point's output block exactly when it is one of the block's 1024 rows. -/
theorem mem_blk (t : Fin cfg0.N) (i : S2048x1.Idx) :
    i ∈ ((cfg0.win 9).blk t).view.set ↔ ∀ a : Fin 2, win0_9.index t a * S1024x1.size a ≤ (i a).val
      ∧ (i a).val < win0_9.index t a * S1024x1.size a + S1024x1.size a := by
  show i ∈ ((View.whole main_v3).slice (win0_9.rect t)).set ↔ _
  rw [View.set_slice_whole, Rect.mem_set_unit]
  exact Iff.rfl

/-- Every row of the result is written back: row `r` by the last point of batch tile `r / 1024`. -/
theorem cover (i : S2048x1.Idx) :
    ∃ t : Fin cfg0.N, (cfg0.win 9).flush t = true ∧ i ∈ ((cfg0.win 9).blk t).view.set := by
  have hN : cfg0.N = 160 := N_0
  have hi0 : (i 0).val < 2048 := (i 0).isLt
  have hi1 : (i 1).val < 1 := (i 1).isLt
  have hb : 80 * ((i 0).val / 1024) + 79 < cfg0.N := by rw [hN]; omega
  obtain ⟨-, -, -, -, -, -, -, -, -, -, -, -, -, -, -, -, -, -, w90, w91⟩ := Blocks.idx_facts ⟨80 * ((i 0).val / 1024) + 79, hb⟩
  have w90' : win0_9.index ⟨80 * ((i 0).val / 1024) + 79, hb⟩ (0 : Fin 2) = (80 * ((i 0).val / 1024) + 79) / 80 := w90
  refine ⟨⟨80 * ((i 0).val / 1024) + 79, hb⟩, (flush0_9 _).mpr (by show (80 * ((i 0).val / 1024) + 79) % 80 = 79; omega), ?_⟩
  rw [mem_blk]
  intro a
  match a with
  | ⟨0, _⟩ =>
    show win0_9.index ⟨80 * ((i 0).val / 1024) + 79, hb⟩ (0 : Fin 2) * 1024 ≤ (i 0).val
      ∧ (i 0).val < win0_9.index ⟨80 * ((i 0).val / 1024) + 79, hb⟩ (0 : Fin 2) * 1024 + 1024
    rw [w90']; omega
  | ⟨1, _⟩ =>
    show win0_9.index ⟨80 * ((i 0).val / 1024) + 79, hb⟩ (1 : Fin 2) * 1 ≤ (i 1).val
      ∧ (i 1).val < win0_9.index ⟨80 * ((i 0).val / 1024) + 79, hb⟩ (1 : Fin 2) * 1 + 1
    rw [w91]; omega

/-- The result array after the run. -/
theorem final (c : Dev nD) : (dats m 0 c).arrAt 9 cfg0.N = result m c :=
  (dats m 0 c).arrAt_eq_of_cover 9 (result m c) (fun t hf => flushed_eq m c t hf) (cover)

/-- The kernel's run: every weakly fair execution ends with the result array at `result` and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.Final

end
-- ==== Proof.lean ====
/-
  The kernel and its reference compute the same function on the extended reals.

  Both programs evaluate, row by row, a small network on two feature accumulators: `Cert.Result.row`. The reference
  forms each accumulator by one sum over all 81920 features; the kernel walks a 2 × 80 grid, keeps the accumulators of
  a batch tile of 1024 rows in two scratch buffers, adds one tile of 1024 features' products at each grid point, and at
  the last feature tile of a batch tile applies the two small layers and writes the batch tile's outputs. A finite sum
  in a commutative monoid does not depend on how it is cut into tiles, so no finiteness of the inputs is needed: the
  two results agree at infinite entries too. The changes of float format inside the kernel are the identity on the
  extended reals, and the kernel was printed with no rewrite, so the statement relating it to its idealization is empty.

  The modules: `Spec` (one row of the network), `Result` (the result as a function of the arguments), `Algebra` (a sum
  cut into tiles), `RefRow` (the reference at a row), `KPieces` (what each case of the kernel body leaves in each buffer),
  `KPay` (the body's arithmetic at an index), `KBlocks` (the blocks a grid point is given), `KAcc` (the accumulators after
  each point), `KFinal` (the result array after the run).
-/
import proofs.«105220_j17549236372205_1_alg».proof.Defs
import proofs.«105220_j17549236372205_1_alg».proof.Proof.Gen.Kernel
import proofs.«105220_j17549236372205_1_alg».proof.Proof.Gen.Kernel.Skeleton
import proofs.«105220_j17549236372205_1_alg».proof.Proof.Gen.Kernel.Launch
import proofs.«105220_j17549236372205_1_alg».proof.Proof.Gen.Kernel.Points
import proofs.«105220_j17549236372205_1_alg».proof.Proof.Gen.Kernel.Frame
import proofs.«105220_j17549236372205_1_alg».proof.Proof.Gen.KernelIdeal
import proofs.«105220_j17549236372205_1_alg».proof.Proof.Gen.KernelIdeal.Skeleton
import proofs.«105220_j17549236372205_1_alg».proof.Proof.Gen.KernelIdeal.Launch
import proofs.«105220_j17549236372205_1_alg».proof.Proof.Gen.KernelIdeal.Points
import proofs.«105220_j17549236372205_1_alg».proof.Proof.Gen.KernelIdeal.Frame
import proofs.«105220_j17549236372205_1_alg».proof.Proof.Gen.ReferenceIdeal
import proofs.«105220_j17549236372205_1_alg».proof.Proof.Gen.Pre_finite_inputs
import proofs.«105220_j17549236372205_1_alg».proof.Proof.Gen.KernelIdeal.Value
import proofs.«105220_j17549236372205_1_alg».proof.Proof.Gen.ReferenceIdeal.Run
import proofs.«105220_j17549236372205_1_alg».proof.Proof.Gen.ReferenceIdeal.Read
import proofs.«105220_j17549236372205_1_alg».proof.Proof.RefRow
import proofs.«105220_j17549236372205_1_alg».proof.Proof.KFinal
import Idealize.ShloMosaic.Adequacy
import Idealize.ShloMosaic.Init

noncomputable section

namespace Cert.Proof

open Idealize.ShloMosaic Idealize.SL.Sem Idealize.ShloMosaic.ValueIdx

/-- The kernel as printed runs, faults nowhere and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- And the reference: its run, with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the result array at `Cert.Result.row` of the
    arguments, row by row: the kernel by `KFinal.run`, the reference by its run read at a row (`RefRow.result_row`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Final.result m c, Cert.KernelIdeal.Final.run m ρ, ?_⟩
  refine (θ_run Cert.ReferenceIdeal.defs _ _).mono (fun _ h c => ⟨?_, (h c).2⟩) (Cert.ReferenceIdeal.Value.run (F := Ideal) m' ρ')
  obtain ⟨a0, a1, a2, -, -, a5, a6, a7, a8, a9, a10⟩ := hagree c
  refine ((h c).1.trans (Cert.ReferenceIdeal.Read.val_main_v31_eq _ _ _ _ _ _ _ _ _)).trans ?_
  rw [a0, a1, a2, a5, a6, a7, a8, a9, a10]
  funext i
  obtain ⟨r, u, rfl⟩ : ∃ (r : Fin 2048) (u : Fin 1), i = ix2 r u := ⟨i 0, i 1, eq_ix2 i⟩
  obtain rfl : u = 0 := Subsingleton.elim _ _
  exact Cert.ReferenceIdeal.Row.result_row _ _ _ _ _ _ _ _ _ r

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
